-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x128 : Shape := ⟨2, ![1, 128]⟩
abbrev S3x128x128 : Shape := ⟨3, ![3, 128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_

variable [Facts]

def fn_part5 {F : FTy → Type} [FloatOps F] (main_arg19 : FVec F S3x128x128 .f32) (main_arg20 : FVec F S128 .f32) (main_v83 : IVec S_ 1) (main_v84 : FVec F S1x128 .f32) (main_cst_32 : FVec F S_ .f32) : IVec S_ 1 :=
  let main_v85 : FVec F S1x128 .f32 := broadcastInDim S1x128 ![] bcast_S_S1x128 main_cst_32
  let main_v86 : IVec S1x128 1 := cmpf .olt main_v84 main_v85
  let main_c_33 : IVec S_ 1 := constantI S_ 1 1#1
  let main_v87 : IVec S_ 1 := (fun x v => Host.reduce IntOp.andi x v reducesTo_S1x128_S_d0_1 h_S_) main_v86 main_c_33
  let main_v88 : IVec S_ 1 := andi main_v83 main_v87
  let main_v89 : FVec F S3x128x128 .f32 := Host.absf main_arg19
  let main_cst_34 : FVec F S_ .f32 := constant S_ .f32 0x7F800000#32
  let main_v90 : FVec F S3x128x128 .f32 := broadcastInDim S3x128x128 ![] bcast_S_S3x128x128 main_cst_34
  let main_v91 : IVec S3x128x128 1 := cmpf .olt main_v89 main_v90
  let main_c_35 : IVec S_ 1 := constantI S_ 1 1#1
  let main_v92 : IVec S_ 1 := (fun x v => Host.reduce IntOp.andi x v reducesTo_S3x128x128_S_d0_1_2 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  main_v98

def fn_part4 {F : FTy → Type} [FloatOps F] (main_arg15 : FVec F S3x128x128 .f32) (main_arg16 : FVec F S128 .f32) (main_arg17 : FVec F S128x128 .f32) (main_arg18 : FVec F S1x128 .f32) (main_arg19 : FVec F S3x128x128 .f32) (main_arg20 : FVec F S128 .f32) (main_v63 : IVec S_ 1) (main_v67 : IVec S_ 1) : IVec S_ 1 :=
  let main_v68 : IVec S_ 1 := andi main_v63 main_v67
  let main_v69 : FVec F S3x128x128 .f32 := Host.absf main_arg15
  let main_cst_26 : FVec F S_ .f32 := constant S_ .f32 0x7F800000#32
  let main_v70 : FVec F S3x128x128 .f32 := broadcastInDim S3x128x128 ![] bcast_S_S3x128x128 main_cst_26
  let main_v71 : IVec S3x128x128 1 := cmpf .olt main_v69 main_v70
  let main_c_27 : IVec S_ 1 := constantI S_ 1 1#1
  let main_v72 : IVec S_ 1 := (fun x v => Host.reduce IntOp.andi x v reducesTo_S3x128x128_S_d0_1_2 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S1x128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128 .f32) (main_arg13 : FVec F S128x128 .f32) (main_arg14 : FVec F S1x128 .f32) (main_arg15 : FVec F S3x128x128 .f32) (main_arg16 : FVec F S128 .f32) (main_arg17 : FVec F S128x128 .f32) (main_arg18 : FVec F S1x128 .f32) (main_arg19 : FVec F S3x128x128 .f32) (main_arg20 : FVec F S128 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S1x128 .f32 := Host.absf main_arg14
  let main_cst_24 : FVec F S_ .f32 := constant S_ .f32 0x7F800000#32
  let main_v65 : FVec F S1x128 .f32 := broadcastInDim S1x128 ![] bcast_S_S1x128 main_cst_24
  let main_v66 : IVec S1x128 1 := cmpf .olt main_v64 main_v65
  let main_c_25 : IVec S_ 1 := constantI S_ 1 1#1
  let main_v67 : IVec S_ 1 := (fun x v => Host.reduce IntOp.andi x v reducesTo_S1x128_S_d0_1 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128x128 .f32) (main_arg10 : FVec F S1x128 .f32) (main_arg11 : FVec F S3x128x128 .f32) (main_arg12 : FVec F S128 .f32) (main_arg13 : FVec F S128x128 .f32) (main_arg14 : FVec F S1x128 .f32) (main_arg15 : FVec F S3x128x128 .f32) (main_arg16 : FVec F S128 .f32) (main_arg17 : FVec F S128x128 .f32) (main_arg18 : FVec F S1x128 .f32) (main_arg19 : FVec F S3x128x128 .f32) (main_arg20 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S3x128x128 .f32 := Host.absf main_arg11
  let main_cst_18 : FVec F S_ .f32 := constant S_ .f32 0x7F800000#32
  let main_v50 : FVec F S3x128x128 .f32 := broadcastInDim S3x128x128 ![] bcast_S_S3x128x128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128x128 .f32) (main_arg6 : FVec F S1x128 .f32) (main_arg7 : FVec F S3x128x128 .f32) (main_arg8 : FVec F S128 .f32) (main_arg9 : FVec F S128x128 .f32) (main_arg10 : FVec F S1x128 .f32) (main_arg11 : FVec F S3x128x128 .f32) (main_arg12 : FVec F S128 .f32) (main_arg13 : FVec F S128x128 .f32) (main_arg14 : FVec F S1x128 .f32) (main_arg15 : FVec F S3x128x128 .f32) (main_arg16 : FVec F S128 .f32) (main_arg17 : FVec F S128x128 .f32) (main_arg18 : FVec F S1x128 .f32) (main_arg19 : FVec F S3x128x128 .f32) (main_arg20 : FVec F S128 .f32) (main_v13 : IVec S_ 1) (main_v16 : IVec S50000x128 1) : IVec S_ 1 :=
  let main_c_5 : IVec S_ 1 := constantI S_ 1 1#1
  let main_v17 : IVec S_ 1 := (fun x v => Host.reduce IntOp.andi x v reducesTo_S50000x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S3x128x128 .f32 := Host.absf main_arg7
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S50000x128 .f32) (main_arg1 : IVec S2x800000 32) (main_arg2 : FVec F S800000 .f32) (main_arg3 : FVec F S50000x128 .f32) (main_arg4 : FVec F S50000x128 .f32) (main_arg5 : FVec F S128x128 .f32) (main_arg6 : FVec F S1x128 .f32) (main_arg7 : FVec F S3x128x128 .f32) (main_arg8 : FVec F S128 .f32) (main_arg9 : FVec F S128x128 .f32) (main_arg10 : FVec F S1x128 .f32) (main_arg11 : FVec F S3x128x128 .f32) (main_arg12 : FVec F S128 .f32) (main_arg13 : FVec F S128x128 .f32) (main_arg14 : FVec F S1x128 .f32) (main_arg15 : FVec F S3x128x128 .f32) (main_arg16 : FVec F S128 .f32) (main_arg17 : FVec F S128x128 .f32) (main_arg18 : FVec F S1x128 .f32) (main_arg19 : FVec F S3x128x128 .f32) (main_arg20 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x128 .f32 := Host.absf main_arg3
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S50000x128 .f32 := Host.absf main_arg4
  let main_cst_4 : FVec F S_ .f32 := constant S_ .f32 0x7F800000#32
  let main_v15 : FVec F S50000x128 .f32 := broadcastInDim S50000x128 ![] bcast_S_S50000x128 main_cst_4
  let main_v16 : IVec S50000x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x128 : Shape := ⟨2, ![1, 128]⟩
abbrev S3x128x128 : Shape := ⟨3, ![3, 128, 128]⟩
abbrev S128 : Shape := ⟨1, ![128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S1000x128 : Shape := ⟨2, ![1000, 128]⟩
abbrev S1x128x128 : Shape := ⟨3, ![1, 128, 128]⟩

abbrev nBuf : Space → Nat
  | .hbm => 103
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S50000x128, .f32⟩
  | .hbm, ⟨4, _⟩ => ⟨S50000x128, .f32⟩
  | .hbm, ⟨5, _⟩ => ⟨S128x128, .f32⟩
  | .hbm, ⟨6, _⟩ => ⟨S1x128, .f32⟩
  | .hbm, ⟨7, _⟩ => ⟨S3x128x128, .f32⟩
  | .hbm, ⟨8, _⟩ => ⟨S128, .f32⟩
  | .hbm, ⟨9, _⟩ => ⟨S128x128, .f32⟩
  | .hbm, ⟨10, _⟩ => ⟨S1x128, .f32⟩
  | .hbm, ⟨11, _⟩ => ⟨S3x128x128, .f32⟩
  | .hbm, ⟨12, _⟩ => ⟨S128, .f32⟩
  | .hbm, ⟨13, _⟩ => ⟨S128x128, .f32⟩
  | .hbm, ⟨14, _⟩ => ⟨S1x128, .f32⟩
  | .hbm, ⟨15, _⟩ => ⟨S3x128x128, .f32⟩
  | .hbm, ⟨16, _⟩ => ⟨S128, .f32⟩
  | .hbm, ⟨17, _⟩ => ⟨S128x128, .f32⟩
  | .hbm, ⟨18, _⟩ => ⟨S1x128, .f32⟩
  | .hbm, ⟨19, _⟩ => ⟨S3x128x128, .f32⟩
  | .hbm, ⟨20, _⟩ => ⟨S128, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000, .f32⟩
  | .hbm, ⟨53, _⟩ => ⟨S800000, .f32⟩
  | .hbm, ⟨54, _⟩ => ⟨S800000, .f32⟩
  | .hbm, ⟨55, _⟩ => ⟨S_, .i32⟩
  | .hbm, ⟨56, _⟩ => ⟨S800000, .i32⟩
  | .hbm, ⟨57, _⟩ => ⟨S800000, .i1⟩
  | .hbm, ⟨58, _⟩ => ⟨S_, .i32⟩
  | .hbm, ⟨59, _⟩ => ⟨S800000, .i32⟩
  | .hbm, ⟨60, _⟩ => ⟨S800000, .i32⟩
  | .hbm, ⟨61, _⟩ => ⟨S800000, .i32⟩
  | .hbm, ⟨62, _⟩ => ⟨S800000x1, .i32⟩
  | .hbm, ⟨63, _⟩ => ⟨S800000, .f32⟩
  | .hbm, ⟨64, _⟩ => ⟨S800000, .f32⟩
  | .hbm, ⟨65, _⟩ => ⟨S800000x1, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S800000x1, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S800000x128, .f32⟩
  | .hbm, ⟨92, _⟩ => ⟨S800000x128, .f32⟩
  | .hbm, ⟨93, _⟩ => ⟨S_, .f32⟩
  | .hbm, ⟨94, _⟩ => ⟨S50000x128, .f32⟩
  | .hbm, ⟨95, _⟩ => ⟨S800000x1, .i32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S50000x128, .f32⟩
  | .hbm, ⟨102, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1000x128, .f32⟩
  | .local _ .vmem, ⟨8, _⟩ => ⟨S1000x128, .f32⟩
  | .local _ .vmem, ⟨9, _⟩ => ⟨S1000x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S3x128x128, .f32⟩
  | .local _ .vmem, ⟨19, _⟩ => ⟨S3x128x128, .f32⟩
  | .local _ .vmem, ⟨20, _⟩ => ⟨S3x128x128, .f32⟩
  | .local _ .vmem, ⟨21, _⟩ => ⟨S3x128x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S1000x128, .f32⟩
  | .local _ .vmem, ⟨27, _⟩ => ⟨S1000x128, .f32⟩
  | .local _ .vmem, ⟨28, _⟩ => ⟨S1000x128, .f32⟩
  | .local _ .vmem, ⟨29, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst_0 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_v10 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_v13 : Ref sig .tc := ⟨.hbm, 43, rfl⟩
abbrev main_c : Ref sig .tc := ⟨.hbm, 44, rfl⟩
abbrev main_v14 : Ref sig .tc := ⟨.hbm, 45, rfl⟩
abbrev main_v15 : Ref sig .tc := ⟨.hbm, 46, rfl⟩
abbrev main_c_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_5 : Ref sig .tc := ⟨.hbm, 55, rfl⟩
abbrev main_v23 : Ref sig .tc := ⟨.hbm, 56, rfl⟩
abbrev main_v24 : Ref sig .tc := ⟨.hbm, 57, rfl⟩
abbrev main_c_6 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_c_7 : Ref sig .tc := ⟨.hbm, 66, rfl⟩
abbrev main_v32 : Ref sig .tc := ⟨.hbm, 67, rfl⟩
abbrev main_v33 : Ref sig .tc := ⟨.hbm, 68, rfl⟩
abbrev main_c_8 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst_9 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_10 : Ref sig .tc := ⟨.hbm, 82, rfl⟩
abbrev main_v45 : Ref sig .tc := ⟨.hbm, 83, rfl⟩
abbrev main_v46 : Ref sig .tc := ⟨.hbm, 84, rfl⟩
abbrev main_c_11 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_cst_12 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_13 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60_0 : Ref sig .tc := ⟨.hbm, 101, rfl⟩
abbrev main_v60_1 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem21_1 : DmaSem sig := 27
abbrev cc0_sem22_0 : DmaSem sig := 28
abbrev cc0_sem22_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S3x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1000x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1000x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S1000x128 : S1x128.Broadcasts S1000x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S128_S128_0 : ∀ a, (![0] : Fin 1 → Nat) a + S128.size a ≤ S128.size a
  h_S128 : 0 < S128.numel
  shapeCasts_S128_S1x128 : S128.ShapeCasts S1x128
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S50000x128.size a
  hwx0_1 : ∀ i : grid0.Coords, EltTy.bits .f32 = 32 ∨ (Rect.block (s := S50000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x128.size a ≤ S50000x128.size a
  hwx0_3 : ∀ i : grid0.Coords, EltTy.bits .f32 = 32 ∨ (Rect.block (s := S50000x128) S1000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x128.size a ≤ S50000x128.size a
  hwx0_4 : ∀ i : grid0.Coords, EltTy.bits .f32 = 32 ∨ (Rect.block (s := S50000x128) S1000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S3x128x128.size a ≤ S3x128x128.size a
  hwx0_13 : ∀ i : grid0.Coords, EltTy.bits .f32 = 32 ∨ (Rect.block (s := S3x128x128) S3x128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S3x128x128.size a ≤ S3x128x128.size a
  hwx0_14 : ∀ i : grid0.Coords, EltTy.bits .f32 = 32 ∨ (Rect.block (s := S3x128x128) S3x128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S3x128x128.size a ≤ S3x128x128.size a
  hwx0_15 : ∀ i : grid0.Coords, EltTy.bits .f32 = 32 ∨ (Rect.block (s := S3x128x128) S3x128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S3x128x128.size a ≤ S3x128x128.size a
  hwx0_16 : ∀ i : grid0.Coords, EltTy.bits .f32 = 32 ∨ (Rect.block (s := S3x128x128) S3x128x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1000x128.size a ≤ S50000x128.size a
  hwx0_21 : ∀ i : grid0.Coords, EltTy.bits .f32 = 32 ∨ (Rect.block (s := S50000x128) S1000x128.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1000x128.size a ≤ S50000x128.size a
  hwx0_22 : ∀ i : grid0.Coords, EltTy.bits .f32 = 32 ∨ (Rect.block (s := S50000x128) S1000x128.size (cc0_transform_22 i) (hinb0_22 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S1000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1000x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg17) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg14) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg18) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg7) S3x128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S3x128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S3x128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg19) S3x128x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg8) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg12) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg16) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v60_0) S1000x128.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v60_1) S1000x128.size cc0_transform_22 reads0_22 true false 2 stage0_22 sem0_22
    hrank0 hreads0_22 hinb0_22 nbuf0_22 (Memref.isWhole_whole _) hwx0_22 hstage0_22

abbrev win0 : Fin 23 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | ⟨_ + 23, h⟩ => absurd h (Nat.not_lt.2 (Nat.le_add_left _ _))
abbrev spec0 : Fin 23 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S1x128 : Shape := ⟨2, ![1, 128]⟩
abbrev S3x128x128 : Shape := ⟨3, ![3, 128, 128]⟩
abbrev S128 : Shape := ⟨1, ![128]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S800000x128 : Shape := ⟨2, ![800000, 128]⟩

abbrev nBuf : Space → Nat
  | .hbm => 315
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000x128, .f32⟩
  | 4 => ⟨S50000x128, .f32⟩
  | 5 => ⟨S128x128, .f32⟩
  | 6 => ⟨S1x128, .f32⟩
  | 7 => ⟨S3x128x128, .f32⟩
  | 8 => ⟨S128, .f32⟩
  | 9 => ⟨S128x128, .f32⟩
  | 10 => ⟨S1x128, .f32⟩
  | 11 => ⟨S3x128x128, .f32⟩
  | 12 => ⟨S128, .f32⟩
  | 13 => ⟨S128x128, .f32⟩
  | 14 => ⟨S1x128, .f32⟩
  | 15 => ⟨S3x128x128, .f32⟩
  | 16 => ⟨S128, .f32⟩
  | 17 => ⟨S128x128, .f32⟩
  | 18 => ⟨S1x128, .f32⟩
  | 19 => ⟨S3x128x128, .f32⟩
  | 20 => ⟨S128, .f32⟩
  | 21 => ⟨S1x800000, .i32⟩
  | 22 => ⟨S800000, .i32⟩
  | 23 => ⟨S1x800000, .i32⟩
  | 24 => ⟨S800000, .i32⟩
  | 25 => ⟨S1x800000, .i32⟩
  | 26 => ⟨S800000, .i32⟩
  | 27 => ⟨S1x800000, .i32⟩
  | 28 => ⟨S800000, .i32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .i1⟩
  | 36 => ⟨S_, .f32⟩
  | 37 => ⟨S50000, .f32⟩
  | 38 => ⟨S50000, .i1⟩
  | 39 => ⟨S_, .f32⟩
  | 40 => ⟨S_, .f32⟩
  | 41 => ⟨S50000, .f32⟩
  | 42 => ⟨S50000, .f32⟩
  | 43 => ⟨S50000, .f32⟩
  | 44 => ⟨S_, .f32⟩
  | 45 => ⟨S_, .f32⟩
  | 46 => ⟨S50000, .f32⟩
  | 47 => ⟨S50000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S800000, .f32⟩
  | 58 => ⟨S800000, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000, .f32⟩
  | 68 => ⟨S800000, .f32⟩
  | 69 => ⟨S50000x128, .f32⟩
  | 70 => ⟨S1x128x128, .f32⟩
  | 71 => ⟨S128x128, .f32⟩
  | 72 => ⟨S50000x128, .f32⟩
  | 73 => ⟨S800000x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S1x128x128, .f32⟩
  | 90 => ⟨S128x128, .f32⟩
  | 91 => ⟨S50000x128, .f32⟩
  | 92 => ⟨S50000x128, .f32⟩
  | 93 => ⟨S800000x1, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x128, .f32⟩
  | 103 => ⟨S800000x128, .f32⟩
  | 104 => ⟨S800000x128, .f32⟩
  | 105 => ⟨S_, .f32⟩
  | 106 => ⟨S50000x128, .f32⟩
  | 107 => ⟨S800000x1, .i32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x128x128, .f32⟩
  | 114 => ⟨S128x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_1 (i : Nat) : BufTy := match i % 128 with
  | 0 => ⟨S_, .f32⟩
  | 1 => ⟨S50000x128, .f32⟩
  | 2 => ⟨S50000x128, .f32⟩
  | 3 => ⟨S50000x128, .f32⟩
  | 4 => ⟨S1x128x128, .f32⟩
  | 5 => ⟨S128x128, .f32⟩
  | 6 => ⟨S50000x128, .f32⟩
  | 7 => ⟨S800000x1, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S800000x128, .f32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S1x128x128, .f32⟩
  | 24 => ⟨S128x128, .f32⟩
  | 25 => ⟨S50000x128, .f32⟩
  | 26 => ⟨S50000x128, .f32⟩
  | 27 => ⟨S800000x1, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S800000x128, .f32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128x128, .f32⟩
  | 48 => ⟨S128x128, .f32⟩
  | 49 => ⟨S50000x128, .f32⟩
  | 50 => ⟨S50000x128, .f32⟩
  | 51 => ⟨S1x128, .f32⟩
  | 52 => ⟨S50000x128, .f32⟩
  | 53 => ⟨S50000x128, .f32⟩
  | 54 => ⟨S50000x128, .f32⟩
  | 55 => ⟨S50000x128, .f32⟩
  | 56 => ⟨S50000x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S_, .f32⟩
  | 63 => ⟨S50000x128, .f32⟩
  | 64 => ⟨S50000x128, .f32⟩
  | 65 => ⟨S50000x128, .f32⟩
  | 66 => ⟨S1x128x128, .f32⟩
  | 67 => ⟨S128x128, .f32⟩
  | 68 => ⟨S50000x128, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x128, .f32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S1x128x128, .f32⟩
  | 86 => ⟨S128x128, .f32⟩
  | 87 => ⟨S50000x128, .f32⟩
  | 88 => ⟨S50000x128, .f32⟩
  | 89 => ⟨S800000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x128, .f32⟩
  | 99 => ⟨S800000x128, .f32⟩
  | 100 => ⟨S800000x128, .f32⟩
  | 101 => ⟨S_, .f32⟩
  | 102 => ⟨S50000x128, .f32⟩
  | 103 => ⟨S800000x1, .i32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S1x128x128, .f32⟩
  | 110 => ⟨S128x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S50000x128, .f32⟩
  | 117 => ⟨S50000x128, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S800000x1, .f32⟩
  | _ => ⟨S50000x128, .f32⟩

abbrev hbmTy0_2 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S1x128x128, .f32⟩
  | 16 => ⟨S128x128, .f32⟩
  | 17 => ⟨S50000x128, .f32⟩
  | 18 => ⟨S50000x128, .f32⟩
  | 19 => ⟨S800000x1, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S800000x128, .f32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S50000x128, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_v12 : Ref sig .tc := ⟨.hbm, 35, rfl⟩
abbrev main_cst_1 : Ref sig .tc := ⟨.hbm, 36, rfl⟩
abbrev main_v13 : Ref sig .tc := ⟨.hbm, 37, rfl⟩
abbrev main_v14 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_call1_v0 : Ref sig .tc := ⟨.hbm, 45, rfl⟩
abbrev main_call1_v1 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_c_5 : Ref sig .tc := ⟨.hbm, 59, rfl⟩
abbrev main_v27 : Ref sig .tc := ⟨.hbm, 60, rfl⟩
abbrev main_v28 : Ref sig .tc := ⟨.hbm, 61, rfl⟩
abbrev main_c_6 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_c_7 : Ref sig .tc := ⟨.hbm, 74, rfl⟩
abbrev main_v40 : Ref sig .tc := ⟨.hbm, 75, rfl⟩
abbrev main_v41 : Ref sig .tc := ⟨.hbm, 76, rfl⟩
abbrev main_c_8 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_9 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_10 : Ref sig .tc := ⟨.hbm, 94, rfl⟩
abbrev main_v57 : Ref sig .tc := ⟨.hbm, 95, rfl⟩
abbrev main_v58 : Ref sig .tc := ⟨.hbm, 96, rfl⟩
abbrev main_c_11 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_12 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_cst_13 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_14 : Ref sig .tc := ⟨.hbm, 125, rfl⟩
abbrev main_v84 : Ref sig .tc := ⟨.hbm, 126, rfl⟩
abbrev main_v85 : Ref sig .tc := ⟨.hbm, 127, rfl⟩
abbrev main_cst_15 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_c_16 : Ref sig .tc := ⟨.hbm, 136, rfl⟩
abbrev main_v93 : Ref sig .tc := ⟨.hbm, 137, rfl⟩
abbrev main_v94 : Ref sig .tc := ⟨.hbm, 138, rfl⟩
abbrev main_c_17 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_18 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_c_19 : Ref sig .tc := ⟨.hbm, 156, rfl⟩
abbrev main_v110 : Ref sig .tc := ⟨.hbm, 157, rfl⟩
abbrev main_v111 : Ref sig .tc := ⟨.hbm, 158, rfl⟩
abbrev main_c_20 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_21 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_22 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_23 : Ref sig .tc := ⟨.hbm, 187, rfl⟩
abbrev main_v137 : Ref sig .tc := ⟨.hbm, 188, rfl⟩
abbrev main_v138 : Ref sig .tc := ⟨.hbm, 189, rfl⟩
abbrev main_cst_24 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_c_25 : Ref sig .tc := ⟨.hbm, 198, rfl⟩
abbrev main_v146 : Ref sig .tc := ⟨.hbm, 199, rfl⟩
abbrev main_v147 : Ref sig .tc := ⟨.hbm, 200, rfl⟩
abbrev main_c_26 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_27 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_c_28 : Ref sig .tc := ⟨.hbm, 218, rfl⟩
abbrev main_v163 : Ref sig .tc := ⟨.hbm, 219, rfl⟩
abbrev main_v164 : Ref sig .tc := ⟨.hbm, 220, rfl⟩
abbrev main_c_29 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_cst_30 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_cst_31 : Ref sig .tc := ⟨.hbm, 233, rfl⟩
abbrev main_v175 : Ref sig .tc := ⟨.hbm, 234, rfl⟩
abbrev main_v176 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_c_32 : Ref sig .tc := ⟨.hbm, 256, rfl⟩
abbrev main_v197 : Ref sig .tc := ⟨.hbm, 257, rfl⟩
abbrev main_v198 : Ref sig .tc := ⟨.hbm, 258, rfl⟩
abbrev main_c_33 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_cst_34 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_c_35 : Ref sig .tc := ⟨.hbm, 276, rfl⟩
abbrev main_v214 : Ref sig .tc := ⟨.hbm, 277, rfl⟩
abbrev main_v215 : Ref sig .tc := ⟨.hbm, 278, rfl⟩
abbrev main_c_36 : Ref sig .tc := ⟨.hbm, 279, rfl⟩
abbrev main_v216 : Ref sig .tc := ⟨.hbm, 280, rfl⟩
abbrev main_v217 : Ref sig .tc := ⟨.hbm, 281, rfl⟩
abbrev main_v218 : Ref sig .tc := ⟨.hbm, 282, rfl⟩
abbrev main_v219 : Ref sig .tc := ⟨.hbm, 283, rfl⟩
abbrev main_v220 : Ref sig .tc := ⟨.hbm, 284, rfl⟩
abbrev main_v221 : Ref sig .tc := ⟨.hbm, 285, rfl⟩
abbrev main_v222 : Ref sig .tc := ⟨.hbm, 286, rfl⟩
abbrev main_cst_37 : Ref sig .tc := ⟨.hbm, 287, rfl⟩
abbrev main_v223 : Ref sig .tc := ⟨.hbm, 288, rfl⟩
abbrev main_v224 : Ref sig .tc := ⟨.hbm, 289, rfl⟩
abbrev main_v225 : Ref sig .tc := ⟨.hbm, 290, rfl⟩
abbrev main_cst_38 : Ref sig .tc := ⟨.hbm, 291, rfl⟩
abbrev main_v226 : Ref sig .tc := ⟨.hbm, 292, rfl⟩
abbrev main_v227 : Ref sig .tc := ⟨.hbm, 293, rfl⟩
abbrev main_v228 : Ref sig .tc := ⟨.hbm, 294, rfl⟩
abbrev main_v229 : Ref sig .tc := ⟨.hbm, 295, rfl⟩
abbrev main_v230 : Ref sig .tc := ⟨.hbm, 296, rfl⟩
abbrev main_v231 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_v238 : Ref sig .tc := ⟨.hbm, 304, rfl⟩
abbrev main_v239 : Ref sig .tc := ⟨.hbm, 305, rfl⟩
abbrev main_v240 : Ref sig .tc := ⟨.hbm, 306, rfl⟩
abbrev main_cst_39 : Ref sig .tc := ⟨.hbm, 307, rfl⟩
abbrev main_v241 : Ref sig .tc := ⟨.hbm, 308, rfl⟩
abbrev main_v242 : Ref sig .tc := ⟨.hbm, 309, rfl⟩
abbrev main_cst_40 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x128x128_S1x128x128_0_0_0 : S3x128x128.Slices ![0, 0, 0] S1x128x128
  shapeCasts_S1x128x128_S128x128 : S1x128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelBlocks.lean ====
/-
  The blocks the grid points read, as parts of the whole arrays.

  The kernel runs over 50 grid points. Point `t` reads rows `1000 t … 1000 t + 999` of the five 50000 × 128 arrays (the
  features, the hidden state, the two Chebyshev terms and the old cell state) and reads the sixteen small weight arrays whole.
  A block's element sits in its array, on each axis, at the block index times the block's size plus its own coordinate; the
  block indices are decided once over the 50 points.
-/
import proofs.«122031_j63668595195950_1_alg».proof.Proof.Gen.KernelIdeal.Value
import Idealize.ShloMosaic.Lib.Pipeline.Value
import Idealize.ShloMosaic.Lib.ValueIdx

set_option Elab.async false

noncomputable section

namespace Cert.ChebLstm.Arr

open Idealize.ShloMosaic Idealize.ShloMosaic.TcCoe Idealize.SL.Sem
open Idealize.ShloMosaic.Pipeline (Dat)
open Idealize.ShloMosaic.ValueIdx
open Cert.KernelIdeal Cert.KernelIdeal.Gen

variable (m : (ℓ : Loc nD τ sig) → Buf (Elt Ideal) ℓ) (c : Dev nD)

/-! ## The index maps, decided over the 50 grid points -/

/-- The five row-blocked inputs and the two outputs sit at block `(t, 0)` at point `t`. -/
theorem rowBlockIndex : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_21.index t (0 : Fin 2) = t.val ∧ win0_21.index t (1 : Fin 2) = 0)
    ∧ (win0_22.index t (0 : Fin 2) = t.val ∧ win0_22.index t (1 : Fin 2) = 0) :=
  (by decide +kernel : ∀ t : Fin grid0.N, _)

/-- The dense weights and the bias rows are read whole at every point: block `(0, 0)`. -/
theorem denseBlockIndex : ∀ t : Fin cfg0.N,
    (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

/-- The convolution weight tensors and biases are read whole at every point: block `(0, 0, 0)`, block `(0)`. -/
theorem convBlockIndex : ∀ t : Fin cfg0.N,
    (win0_13.index t (0 : Fin 3) = 0 ∧ win0_13.index t (1 : Fin 3) = 0 ∧ win0_13.index t (2 : Fin 3) = 0)
    ∧ (win0_14.index t (0 : Fin 3) = 0 ∧ win0_14.index t (1 : Fin 3) = 0 ∧ win0_14.index t (2 : Fin 3) = 0)
    ∧ (win0_15.index t (0 : Fin 3) = 0 ∧ win0_15.index t (1 : Fin 3) = 0 ∧ win0_15.index t (2 : Fin 3) = 0)
    ∧ (win0_16.index t (0 : Fin 3) = 0 ∧ win0_16.index t (1 : Fin 3) = 0 ∧ win0_16.index t (2 : Fin 3) = 0)
    ∧ win0_17.index t (0 : Fin 1) = 0
    ∧ win0_18.index t (0 : Fin 1) = 0
    ∧ win0_19.index t (0 : Fin 1) = 0
    ∧ win0_20.index t (0 : Fin 1) = 0 :=
  (by decide +kernel : ∀ t : Fin grid0.N, _)

/-! ## The input blocks, read off the arrays as the region finds them -/

/-- Entry `(p, k)` of the block of the features at point `t` is entry `(1000 t + p, k)` of the array. -/
theorem blkX (t : Fin cfg0.N) (p : Fin 1000) (P : Fin 50000) (hP : P.val = t.val * 1000 + p.val) (k : Fin 128) :
    (iblk m c 0 t : Vec Ideal S1000x128 .f32) (ix2 p k) = (V m c main_arg0 : S50000x128.Idx → EReal) (ix2 P k) := by
  have h : ((cfg0.win 0).blk t).view.emb (ix2 p k) = ix2 P k := by
    funext a; apply Fin.ext
    obtain ⟨⟨e0, e1⟩, -⟩ := rowBlockIndex t
    match a with
    | ⟨0, _⟩ => show win0_0.index t (0 : Fin 2) * 1000 + 1 * p.val = P.val; omega
    | ⟨1, _⟩ => show win0_0.index t (1 : Fin 2) * 128 + 1 * k.val = k.val; omega
  unfold iblk
  rw [View.read_apply, cast_eq]
  show V m c main_arg0 (((cfg0.win 0).blk t).view.emb (ix2 p k)) = V m c main_arg0 (ix2 P k)
  rw [h]

/-- Entry `(p, k)` of the block of the hidden state at point `t` is entry `(1000 t + p, k)` of the array. -/
theorem blkH (t : Fin cfg0.N) (p : Fin 1000) (P : Fin 50000) (hP : P.val = t.val * 1000 + p.val) (k : Fin 128) :
    (iblk m c 1 t : Vec Ideal S1000x128 .f32) (ix2 p k) = (V m c main_arg3 : S50000x128.Idx → EReal) (ix2 P k) := by
  have h : ((cfg0.win 1).blk t).view.emb (ix2 p k) = ix2 P k := by
    funext a; apply Fin.ext
    obtain ⟨-, ⟨e0, e1⟩, -⟩ := rowBlockIndex t
    match a with
    | ⟨0, _⟩ => show win0_1.index t (0 : Fin 2) * 1000 + 1 * p.val = P.val; omega
    | ⟨1, _⟩ => show win0_1.index t (1 : Fin 2) * 128 + 1 * k.val = k.val; omega
  unfold iblk
  rw [View.read_apply, cast_eq]
  show V m c main_arg3 (((cfg0.win 1).blk t).view.emb (ix2 p k)) = V m c main_arg3 (ix2 P k)
  rw [h]

/-- Entry `(p, k)` of the block of the first Chebyshev term at point `t` is entry `(1000 t + p, k)` of the array. -/
theorem blkT1 (t : Fin cfg0.N) (p : Fin 1000) (P : Fin 50000) (hP : P.val = t.val * 1000 + p.val) (k : Fin 128) :
    (iblk m c 2 t : Vec Ideal S1000x128 .f32) (ix2 p k) = (V m c main_v43 : S50000x128.Idx → EReal) (ix2 P k) := by
  have h : ((cfg0.win 2).blk t).view.emb (ix2 p k) = ix2 P k := by
    funext a; apply Fin.ext
    obtain ⟨-, -, ⟨e0, e1⟩, -⟩ := rowBlockIndex t
    match a with
    | ⟨0, _⟩ => show win0_2.index t (0 : Fin 2) * 1000 + 1 * p.val = P.val; omega
    | ⟨1, _⟩ => show win0_2.index t (1 : Fin 2) * 128 + 1 * k.val = k.val; omega
  unfold iblk
  rw [View.read_apply, cast_eq]
  show V m c main_v43 (((cfg0.win 2).blk t).view.emb (ix2 p k)) = V m c main_v43 (ix2 P k)
  rw [h]

/-- Entry `(p, k)` of the block of the second Chebyshev term at point `t` is entry `(1000 t + p, k)` of the array. -/
theorem blkT2 (t : Fin cfg0.N) (p : Fin 1000) (P : Fin 50000) (hP : P.val = t.val * 1000 + p.val) (k : Fin 128) :
    (iblk m c 3 t : Vec Ideal S1000x128 .f32) (ix2 p k) = (V m c main_v59 : S50000x128.Idx → EReal) (ix2 P k) := by
  have h : ((cfg0.win 3).blk t).view.emb (ix2 p k) = ix2 P k := by
    funext a; apply Fin.ext
    obtain ⟨-, -, -, ⟨e0, e1⟩, -⟩ := rowBlockIndex t
    match a with
    | ⟨0, _⟩ => show win0_3.index t (0 : Fin 2) * 1000 + 1 * p.val = P.val; omega
    | ⟨1, _⟩ => show win0_3.index t (1 : Fin 2) * 128 + 1 * k.val = k.val; omega
  unfold iblk
  rw [View.read_apply, cast_eq]
  show V m c main_v59 (((cfg0.win 3).blk t).view.emb (ix2 p k)) = V m c main_v59 (ix2 P k)
  rw [h]

/-- Entry `(p, k)` of the block of the old cell state at point `t` is entry `(1000 t + p, k)` of the array. -/
theorem blkC (t : Fin cfg0.N) (p : Fin 1000) (P : Fin 50000) (hP : P.val = t.val * 1000 + p.val) (k : Fin 128) :
    (iblk m c 4 t : Vec Ideal S1000x128 .f32) (ix2 p k) = (V m c main_arg4 : S50000x128.Idx → EReal) (ix2 P k) := by
  have h : ((cfg0.win 4).blk t).view.emb (ix2 p k) = ix2 P k := by
    funext a; apply Fin.ext
    obtain ⟨-, -, -, -, ⟨e0, e1⟩, -⟩ := rowBlockIndex t
    match a with
    | ⟨0, _⟩ => show win0_4.index t (0 : Fin 2) * 1000 + 1 * p.val = P.val; omega
    | ⟨1, _⟩ => show win0_4.index t (1 : Fin 2) * 128 + 1 * k.val = k.val; omega
  unfold iblk
  rw [View.read_apply, cast_eq]
  show V m c main_arg4 (((cfg0.win 4).blk t).view.emb (ix2 p k)) = V m c main_arg4 (ix2 P k)
  rw [h]

/-- The input gate's dense weight is staged whole: its block at every point is the array. -/
theorem blkWi (t : Fin cfg0.N) : (iblk m c 5 t : Vec Ideal S128x128 .f32) = (V m c main_arg5 : S128x128.Idx → EReal) := by
  funext j
  have h : ((cfg0.win 5).blk t).view.emb j = j := by
    funext a; apply Fin.ext
    obtain ⟨⟨e0, e1⟩, -⟩ := denseBlockIndex t
    match a with
    | ⟨0, _⟩ => show win0_5.index t (0 : Fin 2) * 128 + 1 * (j 0).val = (j 0).val; omega
    | ⟨1, _⟩ => show win0_5.index t (1 : Fin 2) * 128 + 1 * (j 1).val = (j 1).val; omega
  unfold iblk
  rw [View.read_apply, cast_eq]
  show V m c main_arg5 (((cfg0.win 5).blk t).view.emb j) = V m c main_arg5 j
  rw [h]

/-- The forget gate's dense weight is staged whole: its block at every point is the array. -/
theorem blkWf (t : Fin cfg0.N) : (iblk m c 6 t : Vec Ideal S128x128 .f32) = (V m c main_arg9 : S128x128.Idx → EReal) := by
  funext j
  have h : ((cfg0.win 6).blk t).view.emb j = j := by
    funext a; apply Fin.ext
    obtain ⟨-, ⟨e0, e1⟩, -⟩ := denseBlockIndex t
    match a with
    | ⟨0, _⟩ => show win0_6.index t (0 : Fin 2) * 128 + 1 * (j 0).val = (j 0).val; omega
    | ⟨1, _⟩ => show win0_6.index t (1 : Fin 2) * 128 + 1 * (j 1).val = (j 1).val; omega
  unfold iblk
  rw [View.read_apply, cast_eq]
  show V m c main_arg9 (((cfg0.win 6).blk t).view.emb j) = V m c main_arg9 j
  rw [h]

/-- The candidate gate's dense weight is staged whole: its block at every point is the array. -/
theorem blkWg (t : Fin cfg0.N) : (iblk m c 7 t : Vec Ideal S128x128 .f32) = (V m c main_arg13 : S128x128.Idx → EReal) := by
  funext j
  have h : ((cfg0.win 7).blk t).view.emb j = j := by
    funext a; apply Fin.ext
    obtain ⟨-, -, ⟨e0, e1⟩, -⟩ := denseBlockIndex t
    match a with
    | ⟨0, _⟩ => show win0_7.index t (0 : Fin 2) * 128 + 1 * (j 0).val = (j 0).val; omega
    | ⟨1, _⟩ => show win0_7.index t (1 : Fin 2) * 128 + 1 * (j 1).val = (j 1).val; omega
  unfold iblk
  rw [View.read_apply, cast_eq]
  show V m c main_arg13 (((cfg0.win 7).blk t).view.emb j) = V m c main_arg13 j
  rw [h]

/-- The output gate's dense weight is staged whole: its block at every point is the array. -/
theorem blkWo (t : Fin cfg0.N) : (iblk m c 8 t : Vec Ideal S128x128 .f32) = (V m c main_arg17 : S128x128.Idx → EReal) := by
  funext j
  have h : ((cfg0.win 8).blk t).view.emb j = j := by
    funext a; apply Fin.ext
    obtain ⟨-, -, -, ⟨e0, e1⟩, -⟩ := denseBlockIndex t
    match a with
    | ⟨0, _⟩ => show win0_8.index t (0 : Fin 2) * 128 + 1 * (j 0).val = (j 0).val; omega
    | ⟨1, _⟩ => show win0_8.index t (1 : Fin 2) * 128 + 1 * (j 1).val = (j 1).val; omega
  unfold iblk
  rw [View.read_apply, cast_eq]
  show V m c main_arg17 (((cfg0.win 8).blk t).view.emb j) = V m c main_arg17 j
  rw [h]

/-- The input gate's bias row is staged whole: its block at every point is the array. -/
theorem blkBi (t : Fin cfg0.N) : (iblk m c 9 t : Vec Ideal S1x128 .f32) = (V m c main_arg6 : S1x128.Idx → EReal) := by
  funext j
  have h : ((cfg0.win 9).blk t).view.emb j = j := by
    funext a; apply Fin.ext
    obtain ⟨-, -, -, -, ⟨e0, e1⟩, -⟩ := denseBlockIndex t
    match a with
    | ⟨0, _⟩ => show win0_9.index t (0 : Fin 2) * 1 + 1 * (j 0).val = (j 0).val; omega
    | ⟨1, _⟩ => show win0_9.index t (1 : Fin 2) * 128 + 1 * (j 1).val = (j 1).val; omega
  unfold iblk
  rw [View.read_apply, cast_eq]
  show V m c main_arg6 (((cfg0.win 9).blk t).view.emb j) = V m c main_arg6 j
  rw [h]

/-- The forget gate's bias row is staged whole: its block at every point is the array. -/
theorem blkBf (t : Fin cfg0.N) : (iblk m c 10 t : Vec Ideal S1x128 .f32) = (V m c main_arg10 : S1x128.Idx → EReal) := by
  funext j
  have h : ((cfg0.win 10).blk t).view.emb j = j := by
    funext a; apply Fin.ext
    obtain ⟨-, -, -, -, -, ⟨e0, e1⟩, -⟩ := denseBlockIndex t
    match a with
    | ⟨0, _⟩ => show win0_10.index t (0 : Fin 2) * 1 + 1 * (j 0).val = (j 0).val; omega
    | ⟨1, _⟩ => show win0_10.index t (1 : Fin 2) * 128 + 1 * (j 1).val = (j 1).val; omega
  unfold iblk
  rw [View.read_apply, cast_eq]
  show V m c main_arg10 (((cfg0.win 10).blk t).view.emb j) = V m c main_arg10 j
  rw [h]

/-- The candidate gate's bias row is staged whole: its block at every point is the array. -/
theorem blkBg (t : Fin cfg0.N) : (iblk m c 11 t : Vec Ideal S1x128 .f32) = (V m c main_arg14 : S1x128.Idx → EReal) := by
  funext j
  have h : ((cfg0.win 11).blk t).view.emb j = j := by
    funext a; apply Fin.ext
    obtain ⟨-, -, -, -, -, -, ⟨e0, e1⟩, -⟩ := denseBlockIndex t
    match a with
    | ⟨0, _⟩ => show win0_11.index t (0 : Fin 2) * 1 + 1 * (j 0).val = (j 0).val; omega
    | ⟨1, _⟩ => show win0_11.index t (1 : Fin 2) * 128 + 1 * (j 1).val = (j 1).val; omega
  unfold iblk
  rw [View.read_apply, cast_eq]
  show V m c main_arg14 (((cfg0.win 11).blk t).view.emb j) = V m c main_arg14 j
  rw [h]

/-- The output gate's bias row is staged whole: its block at every point is the array. -/
theorem blkBo (t : Fin cfg0.N) : (iblk m c 12 t : Vec Ideal S1x128 .f32) = (V m c main_arg18 : S1x128.Idx → EReal) := by
  funext j
  have h : ((cfg0.win 12).blk t).view.emb j = j := by
    funext a; apply Fin.ext
    obtain ⟨-, -, -, -, -, -, -, ⟨e0, e1⟩⟩ := denseBlockIndex t
    match a with
    | ⟨0, _⟩ => show win0_12.index t (0 : Fin 2) * 1 + 1 * (j 0).val = (j 0).val; omega
    | ⟨1, _⟩ => show win0_12.index t (1 : Fin 2) * 128 + 1 * (j 1).val = (j 1).val; omega
  unfold iblk
  rw [View.read_apply, cast_eq]
  show V m c main_arg18 (((cfg0.win 12).blk t).view.emb j) = V m c main_arg18 j
  rw [h]

/-- The input gate's convolution weight is staged whole: its block at every point is the array. -/
theorem blkCWi (t : Fin cfg0.N) : (iblk m c 13 t : Vec Ideal S3x128x128 .f32) = (V m c main_arg7 : S3x128x128.Idx → EReal) := by
  funext j
  have h : ((cfg0.win 13).blk t).view.emb j = j := by
    funext a; apply Fin.ext
    obtain ⟨⟨e0, e1, e2⟩, -⟩ := convBlockIndex t
    match a with
    | ⟨0, _⟩ => show win0_13.index t (0 : Fin 3) * 3 + 1 * (j 0).val = (j 0).val; omega
    | ⟨1, _⟩ => show win0_13.index t (1 : Fin 3) * 128 + 1 * (j 1).val = (j 1).val; omega
    | ⟨2, _⟩ => show win0_13.index t (2 : Fin 3) * 128 + 1 * (j 2).val = (j 2).val; omega
  unfold iblk
  rw [View.read_apply, cast_eq]
  show V m c main_arg7 (((cfg0.win 13).blk t).view.emb j) = V m c main_arg7 j
  rw [h]

/-- The forget gate's convolution weight is staged whole: its block at every point is the array. -/
theorem blkCWf (t : Fin cfg0.N) : (iblk m c 14 t : Vec Ideal S3x128x128 .f32) = (V m c main_arg11 : S3x128x128.Idx → EReal) := by
  funext j
  have h : ((cfg0.win 14).blk t).view.emb j = j := by
    funext a; apply Fin.ext
    obtain ⟨-, ⟨e0, e1, e2⟩, -⟩ := convBlockIndex t
    match a with
    | ⟨0, _⟩ => show win0_14.index t (0 : Fin 3) * 3 + 1 * (j 0).val = (j 0).val; omega
    | ⟨1, _⟩ => show win0_14.index t (1 : Fin 3) * 128 + 1 * (j 1).val = (j 1).val; omega
    | ⟨2, _⟩ => show win0_14.index t (2 : Fin 3) * 128 + 1 * (j 2).val = (j 2).val; omega
  unfold iblk
  rw [View.read_apply, cast_eq]
  show V m c main_arg11 (((cfg0.win 14).blk t).view.emb j) = V m c main_arg11 j
  rw [h]

/-- The candidate gate's convolution weight is staged whole: its block at every point is the array. -/
theorem blkCWg (t : Fin cfg0.N) : (iblk m c 15 t : Vec Ideal S3x128x128 .f32) = (V m c main_arg15 : S3x128x128.Idx → EReal) := by
  funext j
  have h : ((cfg0.win 15).blk t).view.emb j = j := by
    funext a; apply Fin.ext
    obtain ⟨-, -, ⟨e0, e1, e2⟩, -⟩ := convBlockIndex t
    match a with
    | ⟨0, _⟩ => show win0_15.index t (0 : Fin 3) * 3 + 1 * (j 0).val = (j 0).val; omega
    | ⟨1, _⟩ => show win0_15.index t (1 : Fin 3) * 128 + 1 * (j 1).val = (j 1).val; omega
    | ⟨2, _⟩ => show win0_15.index t (2 : Fin 3) * 128 + 1 * (j 2).val = (j 2).val; omega
  unfold iblk
  rw [View.read_apply, cast_eq]
  show V m c main_arg15 (((cfg0.win 15).blk t).view.emb j) = V m c main_arg15 j
  rw [h]

/-- The output gate's convolution weight is staged whole: its block at every point is the array. -/
theorem blkCWo (t : Fin cfg0.N) : (iblk m c 16 t : Vec Ideal S3x128x128 .f32) = (V m c main_arg19 : S3x128x128.Idx → EReal) := by
  funext j
  have h : ((cfg0.win 16).blk t).view.emb j = j := by
    funext a; apply Fin.ext
    obtain ⟨-, -, -, ⟨e0, e1, e2⟩, -⟩ := convBlockIndex t
    match a with
    | ⟨0, _⟩ => show win0_16.index t (0 : Fin 3) * 3 + 1 * (j 0).val = (j 0).val; omega
    | ⟨1, _⟩ => show win0_16.index t (1 : Fin 3) * 128 + 1 * (j 1).val = (j 1).val; omega
    | ⟨2, _⟩ => show win0_16.index t (2 : Fin 3) * 128 + 1 * (j 2).val = (j 2).val; omega
  unfold iblk
  rw [View.read_apply, cast_eq]
  show V m c main_arg19 (((cfg0.win 16).blk t).view.emb j) = V m c main_arg19 j
  rw [h]

/-- The input gate's convolution bias is staged whole: its block at every point is the array. -/
theorem blkCBi (t : Fin cfg0.N) : (iblk m c 17 t : Vec Ideal S128 .f32) = (V m c main_arg8 : S128.Idx → EReal) := by
  funext j
  have h : ((cfg0.win 17).blk t).view.emb j = j := by
    funext a; apply Fin.ext
    obtain ⟨-, -, -, -, e0, -⟩ := convBlockIndex t
    match a with
    | ⟨0, _⟩ => show win0_17.index t (0 : Fin 1) * 128 + 1 * (j 0).val = (j 0).val; omega
  unfold iblk
  rw [View.read_apply, cast_eq]
  show V m c main_arg8 (((cfg0.win 17).blk t).view.emb j) = V m c main_arg8 j
  rw [h]

/-- The forget gate's convolution bias is staged whole: its block at every point is the array. -/
theorem blkCBf (t : Fin cfg0.N) : (iblk m c 18 t : Vec Ideal S128 .f32) = (V m c main_arg12 : S128.Idx → EReal) := by
  funext j
  have h : ((cfg0.win 18).blk t).view.emb j = j := by
    funext a; apply Fin.ext
    obtain ⟨-, -, -, -, -, e0, -⟩ := convBlockIndex t
    match a with
    | ⟨0, _⟩ => show win0_18.index t (0 : Fin 1) * 128 + 1 * (j 0).val = (j 0).val; omega
  unfold iblk
  rw [View.read_apply, cast_eq]
  show V m c main_arg12 (((cfg0.win 18).blk t).view.emb j) = V m c main_arg12 j
  rw [h]

/-- The candidate gate's convolution bias is staged whole: its block at every point is the array. -/
theorem blkCBg (t : Fin cfg0.N) : (iblk m c 19 t : Vec Ideal S128 .f32) = (V m c main_arg16 : S128.Idx → EReal) := by
  funext j
  have h : ((cfg0.win 19).blk t).view.emb j = j := by
    funext a; apply Fin.ext
    obtain ⟨-, -, -, -, -, -, e0, -⟩ := convBlockIndex t
    match a with
    | ⟨0, _⟩ => show win0_19.index t (0 : Fin 1) * 128 + 1 * (j 0).val = (j 0).val; omega
  unfold iblk
  rw [View.read_apply, cast_eq]
  show V m c main_arg16 (((cfg0.win 19).blk t).view.emb j) = V m c main_arg16 j
  rw [h]

/-- The output gate's convolution bias is staged whole: its block at every point is the array. -/
theorem blkCBo (t : Fin cfg0.N) : (iblk m c 20 t : Vec Ideal S128 .f32) = (V m c main_arg20 : S128.Idx → EReal) := by
  funext j
  have h : ((cfg0.win 20).blk t).view.emb j = j := by
    funext a; apply Fin.ext
    obtain ⟨-, -, -, -, -, -, -, e0⟩ := convBlockIndex t
    match a with
    | ⟨0, _⟩ => show win0_20.index t (0 : Fin 1) * 128 + 1 * (j 0).val = (j 0).val; omega
  unfold iblk
  rw [View.read_apply, cast_eq]
  show V m c main_arg20 (((cfg0.win 20).blk t).view.emb j) = V m c main_arg20 j
  rw [h]

end Cert.ChebLstm.Arr

end
-- ==== Proof.Spec.lean ====
/-
  A graph LSTM cell whose gates use a three-term Chebyshev graph convolution, one output entry at a time.

  For node `p` and feature `q` each of the four gates (input, forget, candidate, output) has the pre-activation

      x_p · W[:, q]  +  b[q]  +  h_p · cw[0][:, q]  +  t1_p · cw[1][:, q]  +  t2_p · cw[2][:, q]  +  cb[q],

  where `x_p`, `h_p`, `t1_p`, `t2_p` are row `p` of the features `X`, of the hidden state `H = T₀`, and of the Chebyshev
  terms `T₁ = L̂ H` and `T₂ = 2 L̂ T₁ − H`. An entry of the result depends on the big arrays only through row `p`, so the
  functions below take rows (`Fin 128 → EReal`) and the small weight tensors whole.
  The new cell state is `σ(f) · c + σ(i) · tanh(g)` and the new hidden state `σ(o) · tanh(c')`.

  The six summands of a pre-activation are grouped in two ways: `(x·W + b) + (conv + cb)` and `(x·W + (conv + cb)) + b`.
  Addition of extended reals is commutative and associative at every value, the infinities included, so the two groupings
  agree with no finiteness assumption (`preRows_eq_preCols`).
-/
import Idealize.ShloMosaic.PureOps.Ideal
import Idealize.ShloMosaic.Lib.ValueIdx

open scoped BigOperators

noncomputable section

namespace Cert.ChebLstm

open Idealize.ShloMosaic Idealize.ShloMosaic.ValueIdx

/-- The float pattern of `1.0` denotes the extended real `1`. -/
theorem ofBits_one : Ideal.ofBits .f32 0x3F800000#32 = 1 := by
  simp [Ideal.ofBits, Ideal.ieee, -EReal.coe_mul]; norm_num

/-- A row of 128 numbers against column `q` of a 128 × 128 matrix. -/
def rowDot (r : Fin 128 → EReal) (W : (⟨2, ![128, 128]⟩ : Shape).Idx → EReal) (q : Fin 128) : EReal :=
  ∑ k : Fin 128, r k * W (ix2 k q)

/-- A row of 128 numbers against column `q` of slab `s` of a 3 × 128 × 128 tensor. -/
def rowDotSlab (r : Fin 128 → EReal) (cw : (⟨3, ![3, 128, 128]⟩ : Shape).Idx → EReal) (s : Fin 3) (q : Fin 128) : EReal :=
  ∑ k : Fin 128, r k * cw (ix3 s k q)

/-- The Chebyshev convolution of one node at feature `q`: the three terms' rows against the three slabs, plus the bias. -/
def conv (h t1 t2 : Fin 128 → EReal) (cw : (⟨3, ![3, 128, 128]⟩ : Shape).Idx → EReal)
    (cb : (⟨1, ![128]⟩ : Shape).Idx → EReal) (q : Fin 128) : EReal :=
  ((rowDotSlab h cw 0 q + rowDotSlab t1 cw 1 q) + rowDotSlab t2 cw 2 q) + cb (ix1 q)

/-- A gate's pre-activation with the linear part's bias added first: `(x·W + b) + conv`. -/
def preRows (x h t1 t2 : Fin 128 → EReal) (W : (⟨2, ![128, 128]⟩ : Shape).Idx → EReal)
    (b : (⟨2, ![1, 128]⟩ : Shape).Idx → EReal) (cw : (⟨3, ![3, 128, 128]⟩ : Shape).Idx → EReal)
    (cb : (⟨1, ![128]⟩ : Shape).Idx → EReal) (q : Fin 128) : EReal :=
  (rowDot x W q + b (ix2 0 q)) + conv h t1 t2 cw cb q

/-- A gate's pre-activation with the linear part's bias added last: `(x·W + conv) + b`. -/
def preCols (x h t1 t2 : Fin 128 → EReal) (W : (⟨2, ![128, 128]⟩ : Shape).Idx → EReal)
    (b : (⟨2, ![1, 128]⟩ : Shape).Idx → EReal) (cw : (⟨3, ![3, 128, 128]⟩ : Shape).Idx → EReal)
    (cb : (⟨1, ![128]⟩ : Shape).Idx → EReal) (q : Fin 128) : EReal :=
  (rowDot x W q + conv h t1 t2 cw cb q) + b (ix2 0 q)

/-- The two groupings of a pre-activation agree: `(a + b) + c = (a + c) + b` in any commutative additive monoid. -/
theorem preRows_eq_preCols (x h t1 t2 : Fin 128 → EReal) (W : (⟨2, ![128, 128]⟩ : Shape).Idx → EReal)
    (b : (⟨2, ![1, 128]⟩ : Shape).Idx → EReal) (cw : (⟨3, ![3, 128, 128]⟩ : Shape).Idx → EReal)
    (cb : (⟨1, ![128]⟩ : Shape).Idx → EReal) (q : Fin 128) :
    preRows x h t1 t2 W b cw cb q = preCols x h t1 t2 W b cw cb q :=
  add_right_comm _ _ _

/-- The new cell state from the forget, input and candidate pre-activations and the old cell state. -/
def cellState (pf pi pg c : EReal) : EReal :=
  Ideal.logistic pf * c + Ideal.logistic pi * Ideal.tanh pg

/-- The new hidden state from the output pre-activation and the new cell state. -/
def cellOut (po cn : EReal) : EReal :=
  Ideal.logistic po * Ideal.tanh cn

/-- Row `p` of an `n × 128` matrix. -/
def row {n : Nat} (A : (⟨2, ![n, 128]⟩ : Shape).Idx → EReal) (p : Fin n) : Fin 128 → EReal :=
  fun k => A (ix2 p k)

/-- Entry `(p, q)` of the new cell state, from the feature matrix `X`, the Chebyshev terms `H`, `T1`, `T2`, the old cell
    state `C` and the input, forget and candidate gates' weights. -/
def stateAt {n : Nat} (X H T1 T2 C : (⟨2, ![n, 128]⟩ : Shape).Idx → EReal)
    (Wi Wf Wg : (⟨2, ![128, 128]⟩ : Shape).Idx → EReal) (bi bf bg : (⟨2, ![1, 128]⟩ : Shape).Idx → EReal)
    (cwi cwf cwg : (⟨3, ![3, 128, 128]⟩ : Shape).Idx → EReal) (cbi cbf cbg : (⟨1, ![128]⟩ : Shape).Idx → EReal)
    (p : Fin n) (q : Fin 128) : EReal :=
  cellState (preRows (row X p) (row H p) (row T1 p) (row T2 p) Wf bf cwf cbf q)
    (preRows (row X p) (row H p) (row T1 p) (row T2 p) Wi bi cwi cbi q)
    (preRows (row X p) (row H p) (row T1 p) (row T2 p) Wg bg cwg cbg q) (C (ix2 p q))

/-- Entry `(p, q)` of the new hidden state: the output gate against the new cell state's entry. -/
def outAt {n : Nat} (X H T1 T2 C : (⟨2, ![n, 128]⟩ : Shape).Idx → EReal)
    (Wi Wf Wg Wo : (⟨2, ![128, 128]⟩ : Shape).Idx → EReal) (bi bf bg bo : (⟨2, ![1, 128]⟩ : Shape).Idx → EReal)
    (cwi cwf cwg cwo : (⟨3, ![3, 128, 128]⟩ : Shape).Idx → EReal) (cbi cbf cbg cbo : (⟨1, ![128]⟩ : Shape).Idx → EReal)
    (p : Fin n) (q : Fin 128) : EReal :=
  cellOut (preRows (row X p) (row H p) (row T1 p) (row T2 p) Wo bo cwo cbo q)
    (stateAt X H T1 T2 C Wi Wf Wg bi bf bg cwi cwf cwg cbi cbf cbg p q)

/-- The new cell state as one array over all 50000 nodes: entry `(p, q)` is `stateAt … p q`. -/
def stateArr (X H T1 T2 C : (⟨2, ![50000, 128]⟩ : Shape).Idx → EReal)
    (Wi Wf Wg : (⟨2, ![128, 128]⟩ : Shape).Idx → EReal) (bi bf bg : (⟨2, ![1, 128]⟩ : Shape).Idx → EReal)
    (cwi cwf cwg : (⟨3, ![3, 128, 128]⟩ : Shape).Idx → EReal) (cbi cbf cbg : (⟨1, ![128]⟩ : Shape).Idx → EReal) :
    (⟨2, ![50000, 128]⟩ : Shape).Idx → EReal :=
  fun i => stateAt X H T1 T2 C Wi Wf Wg bi bf bg cwi cwf cwg cbi cbf cbg (i 0) (i 1)

/-- The new hidden state as one array over all 50000 nodes: entry `(p, q)` is `outAt … p q`. -/
def outArr (X H T1 T2 C : (⟨2, ![50000, 128]⟩ : Shape).Idx → EReal)
    (Wi Wf Wg Wo : (⟨2, ![128, 128]⟩ : Shape).Idx → EReal) (bi bf bg bo : (⟨2, ![1, 128]⟩ : Shape).Idx → EReal)
    (cwi cwf cwg cwo : (⟨3, ![3, 128, 128]⟩ : Shape).Idx → EReal) (cbi cbf cbg cbo : (⟨1, ![128]⟩ : Shape).Idx → EReal) :
    (⟨2, ![50000, 128]⟩ : Shape).Idx → EReal :=
  fun i => outAt X H T1 T2 C Wi Wf Wg Wo bi bf bg bo cwi cwf cwg cwo cbi cbf cbg cbo (i 0) (i 1)

/-- The reciprocal-of-one-plus-exponential spelling of the logistic function is the logistic function, with the
    constant `1` written as its float pattern. -/
theorem logistic_spelled (x : EReal) :
    Ideal.div (Ideal.ofBits .f32 0x3F800000#32) (Ideal.ofBits .f32 0x3F800000#32 + Ideal.exp (-x)) = Ideal.logistic x := by
  rw [ofBits_one]; rfl

end Cert.ChebLstm

end
-- ==== Proof.KernelArray.lean ====
/-
  From the blocks the grid points write back to the whole arrays.

  Point `t` of the 50 grid points writes rows `1000 t … 1000 t + 999` of the new hidden state and of the new cell state.
  An entry of what it writes depends on the five 50000 × 128 input arrays only through the row it sits in and on the small
  weight arrays whole, so the block point `t` writes is the restriction to its rows of one function of the whole arrays
  (`stateArr`, `outArr`), and the 50 blocks tile the 50000 rows: the two arrays end holding those functions.
  What the body leaves at an entry of its output buffers is taken as a hypothesis (`hE`).
-/
import proofs.«122031_j63668595195950_1_alg».proof.Proof.KernelBlocks
import proofs.«122031_j63668595195950_1_alg».proof.Proof.Spec

noncomputable section

namespace Cert.ChebLstm.Arr

open Idealize.ShloMosaic Idealize.ShloMosaic.TcCoe Idealize.SL.Sem
open Idealize.ShloMosaic.Pipeline (Dat)
open Idealize.ShloMosaic.ValueIdx
open Cert.KernelIdeal Cert.KernelIdeal.Gen Cert.ChebLstm

variable (m : (ℓ : Loc nD τ sig) → Buf (Elt Ideal) ℓ) (c : Dev nD)

/-! ## An entry depends on the big arrays through one row -/

/-- An entry of the new cell state depends on the five big arrays only through the row it sits in: two families of arrays
    that agree on a row give the same entry there, the weights being the same. -/
theorem stateAt_rows {n n' : Nat} {X H T1 T2 C : (⟨2, ![n, 128]⟩ : Shape).Idx → EReal} {X' H' T1' T2' C' : (⟨2, ![n', 128]⟩ : Shape).Idx → EReal}
    (Wi Wf Wg : (⟨2, ![128, 128]⟩ : Shape).Idx → EReal) (bi bf bg : (⟨2, ![1, 128]⟩ : Shape).Idx → EReal)
    (cwi cwf cwg : (⟨3, ![3, 128, 128]⟩ : Shape).Idx → EReal) (cbi cbf cbg : (⟨1, ![128]⟩ : Shape).Idx → EReal)
    (p : Fin n) (P : Fin n') (q : Fin 128)
    (hX : ∀ k, X (ix2 p k) = X' (ix2 P k)) (hH : ∀ k, H (ix2 p k) = H' (ix2 P k))
    (hT1 : ∀ k, T1 (ix2 p k) = T1' (ix2 P k)) (hT2 : ∀ k, T2 (ix2 p k) = T2' (ix2 P k))
    (hC : ∀ k, C (ix2 p k) = C' (ix2 P k)) :
    stateAt X H T1 T2 C Wi Wf Wg bi bf bg cwi cwf cwg cbi cbf cbg p q
      = stateAt X' H' T1' T2' C' Wi Wf Wg bi bf bg cwi cwf cwg cbi cbf cbg P q := by
  have rX : row X p = row X' P := funext hX
  have rH : row H p = row H' P := funext hH
  have rT1 : row T1 p = row T1' P := funext hT1
  have rT2 : row T2 p = row T2' P := funext hT2
  unfold stateAt
  rw [rX, rH, rT1, rT2, hC q]

/-- The same for an entry of the new hidden state. -/
theorem outAt_rows {n n' : Nat} {X H T1 T2 C : (⟨2, ![n, 128]⟩ : Shape).Idx → EReal} {X' H' T1' T2' C' : (⟨2, ![n', 128]⟩ : Shape).Idx → EReal}
    (Wi Wf Wg Wo : (⟨2, ![128, 128]⟩ : Shape).Idx → EReal) (bi bf bg bo : (⟨2, ![1, 128]⟩ : Shape).Idx → EReal)
    (cwi cwf cwg cwo : (⟨3, ![3, 128, 128]⟩ : Shape).Idx → EReal) (cbi cbf cbg cbo : (⟨1, ![128]⟩ : Shape).Idx → EReal)
    (p : Fin n) (P : Fin n') (q : Fin 128)
    (hX : ∀ k, X (ix2 p k) = X' (ix2 P k)) (hH : ∀ k, H (ix2 p k) = H' (ix2 P k))
    (hT1 : ∀ k, T1 (ix2 p k) = T1' (ix2 P k)) (hT2 : ∀ k, T2 (ix2 p k) = T2' (ix2 P k))
    (hC : ∀ k, C (ix2 p k) = C' (ix2 P k)) :
    outAt X H T1 T2 C Wi Wf Wg Wo bi bf bg bo cwi cwf cwg cwo cbi cbf cbg cbo p q
      = outAt X' H' T1' T2' C' Wi Wf Wg Wo bi bf bg bo cwi cwf cwg cwo cbi cbf cbg cbo P q := by
  have rX : row X p = row X' P := funext hX
  have rH : row H p = row H' P := funext hH
  have rT1 : row T1 p = row T1' P := funext hT1
  have rT2 : row T2 p = row T2' P := funext hT2
  unfold outAt
  rw [rX, rH, rT1, rT2, stateAt_rows Wi Wf Wg bi bf bg cwi cwf cwg cbi cbf cbg p P q hX hH hT1 hT2 hC]

/-- An entry of the new cell state computed from a block of 1000 rows and from copies of the weights is the entry of the
    whole-array function at the array row under it. -/
theorem stateAt_block {X H T1 T2 C : (⟨2, ![1000, 128]⟩ : Shape).Idx → EReal} {X' H' T1' T2' C' : (⟨2, ![50000, 128]⟩ : Shape).Idx → EReal}
    {Wi Wf Wg Wi' Wf' Wg' : (⟨2, ![128, 128]⟩ : Shape).Idx → EReal} {bi bf bg bi' bf' bg' : (⟨2, ![1, 128]⟩ : Shape).Idx → EReal}
    {cwi cwf cwg cwi' cwf' cwg' : (⟨3, ![3, 128, 128]⟩ : Shape).Idx → EReal} {cbi cbf cbg cbi' cbf' cbg' : (⟨1, ![128]⟩ : Shape).Idx → EReal}
    (p : Fin 1000) (P : Fin 50000) (q : Fin 128)
    (hX : ∀ k, X (ix2 p k) = X' (ix2 P k)) (hH : ∀ k, H (ix2 p k) = H' (ix2 P k))
    (hT1 : ∀ k, T1 (ix2 p k) = T1' (ix2 P k)) (hT2 : ∀ k, T2 (ix2 p k) = T2' (ix2 P k))
    (hC : ∀ k, C (ix2 p k) = C' (ix2 P k))
    (hWi : Wi = Wi') (hWf : Wf = Wf') (hWg : Wg = Wg') (hbi : bi = bi') (hbf : bf = bf') (hbg : bg = bg')
    (hcwi : cwi = cwi') (hcwf : cwf = cwf') (hcwg : cwg = cwg') (hcbi : cbi = cbi') (hcbf : cbf = cbf') (hcbg : cbg = cbg') :
    stateAt X H T1 T2 C Wi Wf Wg bi bf bg cwi cwf cwg cbi cbf cbg p q
      = stateArr X' H' T1' T2' C' Wi' Wf' Wg' bi' bf' bg' cwi' cwf' cwg' cbi' cbf' cbg' (ix2 P q) := by
  subst hWi hWf hWg hbi hbf hbg hcwi hcwf hcwg hcbi hcbf hcbg
  exact stateAt_rows Wi Wf Wg bi bf bg cwi cwf cwg cbi cbf cbg p P q hX hH hT1 hT2 hC

/-- The same for an entry of the new hidden state. -/
theorem outAt_block {X H T1 T2 C : (⟨2, ![1000, 128]⟩ : Shape).Idx → EReal} {X' H' T1' T2' C' : (⟨2, ![50000, 128]⟩ : Shape).Idx → EReal}
    {Wi Wf Wg Wo Wi' Wf' Wg' Wo' : (⟨2, ![128, 128]⟩ : Shape).Idx → EReal} {bi bf bg bo bi' bf' bg' bo' : (⟨2, ![1, 128]⟩ : Shape).Idx → EReal}
    {cwi cwf cwg cwo cwi' cwf' cwg' cwo' : (⟨3, ![3, 128, 128]⟩ : Shape).Idx → EReal} {cbi cbf cbg cbo cbi' cbf' cbg' cbo' : (⟨1, ![128]⟩ : Shape).Idx → EReal}
    (p : Fin 1000) (P : Fin 50000) (q : Fin 128)
    (hX : ∀ k, X (ix2 p k) = X' (ix2 P k)) (hH : ∀ k, H (ix2 p k) = H' (ix2 P k))
    (hT1 : ∀ k, T1 (ix2 p k) = T1' (ix2 P k)) (hT2 : ∀ k, T2 (ix2 p k) = T2' (ix2 P k))
    (hC : ∀ k, C (ix2 p k) = C' (ix2 P k))
    (hWi : Wi = Wi') (hWf : Wf = Wf') (hWg : Wg = Wg') (hWo : Wo = Wo')
    (hbi : bi = bi') (hbf : bf = bf') (hbg : bg = bg') (hbo : bo = bo')
    (hcwi : cwi = cwi') (hcwf : cwf = cwf') (hcwg : cwg = cwg') (hcwo : cwo = cwo')
    (hcbi : cbi = cbi') (hcbf : cbf = cbf') (hcbg : cbg = cbg') (hcbo : cbo = cbo') :
    outAt X H T1 T2 C Wi Wf Wg Wo bi bf bg bo cwi cwf cwg cwo cbi cbf cbg cbo p q
      = outArr X' H' T1' T2' C' Wi' Wf' Wg' Wo' bi' bf' bg' bo' cwi' cwf' cwg' cwo' cbi' cbf' cbg' cbo' (ix2 P q) := by
  subst hWi hWf hWg hWo hbi hbf hbg hbo hcwi hcwf hcwg hcwo hcbi hcbf hcbg hcbo
  exact outAt_rows Wi Wf Wg Wo bi bf bg bo cwi cwf cwg cwo cbi cbf cbg cbo p P q hX hH hT1 hT2 hC

/-! ## What a point writes back is its block of the whole-array function -/

/-- The array row under row `p` of point `t`'s block. -/
def rowOf (t : Fin cfg0.N) (p : Fin 1000) : Fin 50000 :=
  ⟨t.val * 1000 + p.val, by
    have ht : t.val < 50 := Nat.lt_of_lt_of_eq t.isLt (show cfg0.N = 50 from N_0)
    have hp : p.val < 1000 := p.isLt
    omega⟩

/-- Entry `(p, q)` of the new cell state's block at point `t` sits at `(1000 t + p, q)` in the array. -/
theorem emb22 (t : Fin cfg0.N) (p : Fin 1000) (q : Fin 128) :
    ((cfg0.win 22).blk t).view.emb (ix2 p q) = ix2 (rowOf t p) q := by
  funext a; apply Fin.ext
  obtain ⟨-, -, -, -, -, -, ⟨e0, e1⟩⟩ := rowBlockIndex t
  match a with
  | ⟨0, _⟩ => show win0_22.index t (0 : Fin 2) * 1000 + 1 * p.val = t.val * 1000 + p.val; omega
  | ⟨1, _⟩ => show win0_22.index t (1 : Fin 2) * 128 + 1 * q.val = q.val; omega

/-- Entry `(p, q)` of the new hidden state's block at point `t` sits at `(1000 t + p, q)` in the array. -/
theorem emb21 (t : Fin cfg0.N) (p : Fin 1000) (q : Fin 128) :
    ((cfg0.win 21).blk t).view.emb (ix2 p q) = ix2 (rowOf t p) q := by
  funext a; apply Fin.ext
  obtain ⟨-, -, -, -, -, ⟨e0, e1⟩, -⟩ := rowBlockIndex t
  match a with
  | ⟨0, _⟩ => show win0_21.index t (0 : Fin 2) * 1000 + 1 * p.val = t.val * 1000 + p.val; omega
  | ⟨1, _⟩ => show win0_21.index t (1 : Fin 2) * 128 + 1 * q.val = q.val; omega

/-- WHAT POINT `t` WRITES BACK to the new cell state is block `t` of `stateArr` of the arrays as the region finds them. -/
theorem flushed_eq22 (hE : ∀ (x0 x1 x2 x3 x4 : Vec Ideal S1000x128 .f32) (x5 x6 x7 x8 : Vec Ideal S128x128 .f32) (x9 x10 x11 x12 : Vec Ideal S1x128 .f32) (x13 x14 x15 x16 : Vec Ideal S3x128x128 .f32) (x17 x18 x19 x20 : Vec Ideal S128 .f32) (p : Fin 1000) (q : Fin 128),
      out0_22 (F := Ideal) x0 x1 x2 x3 x4 x5 x6 x7 x8 x9 x10 x11 x12 x13 x14 x15 x16 x17 x18 x19 x20 (ix2 p q)
        = stateAt (n := 1000) x0 x1 x2 x3 x4 x5 x6 x7 x9 x10 x11 x13 x14 x15 x17 x18 x19 p q)
    (t : Fin cfg0.N) :
    (dats m 0 c).flushed 22 t = ((cfg0.win 22).blk t).view.read (Elt Ideal)
      (stateArr (V m c main_arg0) (V m c main_arg3) (V m c main_v43) (V m c main_v59) (V m c main_arg4) (V m c main_arg5) (V m c main_arg9) (V m c main_arg13) (V m c main_arg6) (V m c main_arg10) (V m c main_arg14) (V m c main_arg7) (V m c main_arg11) (V m c main_arg15) (V m c main_arg8) (V m c main_arg12) (V m c main_arg16)) := by
  rw [Value.flushed22]
  funext j
  obtain ⟨p, q, rfl⟩ : ∃ (p : Fin 1000) (q : Fin 128), j = ix2 p q := ⟨j 0, j 1, eq_ix2 j⟩
  rw [View.read_apply, cast_eq]
  show out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p q)
    = stateArr (V m c main_arg0) (V m c main_arg3) (V m c main_v43) (V m c main_v59) (V m c main_arg4) (V m c main_arg5) (V m c main_arg9) (V m c main_arg13) (V m c main_arg6) (V m c main_arg10) (V m c main_arg14) (V m c main_arg7) (V m c main_arg11) (V m c main_arg15) (V m c main_arg8) (V m c main_arg12) (V m c main_arg16) (((cfg0.win 22).blk t).view.emb (ix2 p q))
  rw [emb22 t p q]
  refine (hE _ _ _ _ _ _ _ _ _ _ _ _ _ _ _ _ _ _ _ _ _ p q).trans ?_
  exact stateAt_block p (rowOf t p) q (blkX m c t p (rowOf t p) rfl) (blkH m c t p (rowOf t p) rfl) (blkT1 m c t p (rowOf t p) rfl) (blkT2 m c t p (rowOf t p) rfl)
    (blkC m c t p (rowOf t p) rfl) (blkWi m c t) (blkWf m c t) (blkWg m c t) (blkBi m c t) (blkBf m c t) (blkBg m c t)
    (blkCWi m c t) (blkCWf m c t) (blkCWg m c t) (blkCBi m c t) (blkCBf m c t) (blkCBg m c t)

/-- WHAT POINT `t` WRITES BACK to the new hidden state is block `t` of `outArr` of the arrays as the region finds them. -/
theorem flushed_eq21 (hE : ∀ (x0 x1 x2 x3 x4 : Vec Ideal S1000x128 .f32) (x5 x6 x7 x8 : Vec Ideal S128x128 .f32) (x9 x10 x11 x12 : Vec Ideal S1x128 .f32) (x13 x14 x15 x16 : Vec Ideal S3x128x128 .f32) (x17 x18 x19 x20 : Vec Ideal S128 .f32) (p : Fin 1000) (q : Fin 128),
      out0_21 (F := Ideal) x0 x1 x2 x3 x4 x5 x6 x7 x8 x9 x10 x11 x12 x13 x14 x15 x16 x17 x18 x19 x20 (ix2 p q)
        = outAt (n := 1000) x0 x1 x2 x3 x4 x5 x6 x7 x8 x9 x10 x11 x12 x13 x14 x15 x16 x17 x18 x19 x20 p q)
    (t : Fin cfg0.N) :
    (dats m 0 c).flushed 21 t = ((cfg0.win 21).blk t).view.read (Elt Ideal)
      (outArr (V m c main_arg0) (V m c main_arg3) (V m c main_v43) (V m c main_v59) (V m c main_arg4) (V m c main_arg5) (V m c main_arg9) (V m c main_arg13) (V m c main_arg17) (V m c main_arg6) (V m c main_arg10) (V m c main_arg14) (V m c main_arg18) (V m c main_arg7) (V m c main_arg11) (V m c main_arg15) (V m c main_arg19) (V m c main_arg8) (V m c main_arg12) (V m c main_arg16) (V m c main_arg20)) := by
  rw [Value.flushed21]
  funext j
  obtain ⟨p, q, rfl⟩ : ∃ (p : Fin 1000) (q : Fin 128), j = ix2 p q := ⟨j 0, j 1, eq_ix2 j⟩
  rw [View.read_apply, cast_eq]
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (ix2 p q)
    = outArr (V m c main_arg0) (V m c main_arg3) (V m c main_v43) (V m c main_v59) (V m c main_arg4) (V m c main_arg5) (V m c main_arg9) (V m c main_arg13) (V m c main_arg17) (V m c main_arg6) (V m c main_arg10) (V m c main_arg14) (V m c main_arg18) (V m c main_arg7) (V m c main_arg11) (V m c main_arg15) (V m c main_arg19) (V m c main_arg8) (V m c main_arg12) (V m c main_arg16) (V m c main_arg20) (((cfg0.win 21).blk t).view.emb (ix2 p q))
  rw [emb21 t p q]
  refine (hE _ _ _ _ _ _ _ _ _ _ _ _ _ _ _ _ _ _ _ _ _ p q).trans ?_
  exact outAt_block p (rowOf t p) q (blkX m c t p (rowOf t p) rfl) (blkH m c t p (rowOf t p) rfl) (blkT1 m c t p (rowOf t p) rfl) (blkT2 m c t p (rowOf t p) rfl)
    (blkC m c t p (rowOf t p) rfl) (blkWi m c t) (blkWf m c t) (blkWg m c t) (blkWo m c t)
    (blkBi m c t) (blkBf m c t) (blkBg m c t) (blkBo m c t)
    (blkCWi m c t) (blkCWf m c t) (blkCWg m c t) (blkCWo m c t)
    (blkCBi m c t) (blkCBf m c t) (blkCBg m c t) (blkCBo m c t)

/-! ## The 50 blocks tile the 50000 rows -/

/-- An index of the new cell state's array is in point `t`'s block iff each coordinate is in the block's range on its axis. -/
theorem mem_blk22 (t : Fin cfg0.N) (i : S50000x128.Idx) :
    i ∈ ((cfg0.win 22).blk t).view.set ↔ ∀ a : Fin 2, win0_22.index t a * S1000x128.size a ≤ (i a).val
      ∧ (i a).val < win0_22.index t a * S1000x128.size a + S1000x128.size a := by
  show i ∈ ((View.whole main_v60_1).slice (win0_22.rect t)).set ↔ _
  rw [View.set_slice_whole, Rect.mem_set_unit]
  exact Iff.rfl

/-- An index of the new hidden state's array is in point `t`'s block iff each coordinate is in the block's range on its axis. -/
theorem mem_blk21 (t : Fin cfg0.N) (i : S50000x128.Idx) :
    i ∈ ((cfg0.win 21).blk t).view.set ↔ ∀ a : Fin 2, win0_21.index t a * S1000x128.size a ≤ (i a).val
      ∧ (i a).val < win0_21.index t a * S1000x128.size a + S1000x128.size a := by
  show i ∈ ((View.whole main_v60_0).slice (win0_21.rect t)).set ↔ _
  rw [View.set_slice_whole, Rect.mem_set_unit]
  exact Iff.rfl

/-- The point whose block holds row `r`: `r / 1000`. -/
def pointOf (r : Fin 50000) : Fin cfg0.N :=
  ⟨r.val / 1000, by rw [show cfg0.N = 50 from N_0]; have := r.isLt; omega⟩

/-- Every index of the new cell state's array is in the block of the point `row / 1000`, which writes back. -/
theorem cover22 (i : S50000x128.Idx) :
    ∃ t : Fin cfg0.N, (cfg0.win 22).flush t = true ∧ i ∈ ((cfg0.win 22).blk t).view.set := by
  obtain ⟨r, k, rfl⟩ : ∃ (r : Fin 50000) (k : Fin 128), i = ix2 r k := ⟨i 0, i 1, eq_ix2 i⟩
  have hr : r.val < 50000 := r.isLt
  have hk : k.val < 128 := k.isLt
  have ht : (pointOf r).val = r.val / 1000 := rfl
  obtain ⟨-, -, -, -, -, -, ⟨e0, e1⟩⟩ := rowBlockIndex (pointOf r)
  refine ⟨pointOf r, flush0_22 (pointOf r), ?_⟩
  rw [mem_blk22]
  intro a
  match a with
  | ⟨0, _⟩ =>
    show win0_22.index (pointOf r) (0 : Fin 2) * 1000 ≤ r.val ∧ r.val < win0_22.index (pointOf r) (0 : Fin 2) * 1000 + 1000
    omega
  | ⟨1, _⟩ =>
    show win0_22.index (pointOf r) (1 : Fin 2) * 128 ≤ k.val ∧ k.val < win0_22.index (pointOf r) (1 : Fin 2) * 128 + 128
    omega

/-- Every index of the new hidden state's array is in the block of the point `row / 1000`, which writes back. -/
theorem cover21 (i : S50000x128.Idx) :
    ∃ t : Fin cfg0.N, (cfg0.win 21).flush t = true ∧ i ∈ ((cfg0.win 21).blk t).view.set := by
  obtain ⟨r, k, rfl⟩ : ∃ (r : Fin 50000) (k : Fin 128), i = ix2 r k := ⟨i 0, i 1, eq_ix2 i⟩
  have hr : r.val < 50000 := r.isLt
  have hk : k.val < 128 := k.isLt
  have ht : (pointOf r).val = r.val / 1000 := rfl
  obtain ⟨-, -, -, -, -, ⟨e0, e1⟩, -⟩ := rowBlockIndex (pointOf r)
  refine ⟨pointOf r, flush0_21 (pointOf r), ?_⟩
  rw [mem_blk21]
  intro a
  match a with
  | ⟨0, _⟩ =>
    show win0_21.index (pointOf r) (0 : Fin 2) * 1000 ≤ r.val ∧ r.val < win0_21.index (pointOf r) (0 : Fin 2) * 1000 + 1000
    omega
  | ⟨1, _⟩ =>
    show win0_21.index (pointOf r) (1 : Fin 2) * 128 ≤ k.val ∧ k.val < win0_21.index (pointOf r) (1 : Fin 2) * 128 + 128
    omega

/-! ## The arrays after the run -/

/-- THE NEW CELL STATE after the run is `stateArr` of the arrays as the region finds them. -/
theorem final22 (hE : ∀ (x0 x1 x2 x3 x4 : Vec Ideal S1000x128 .f32) (x5 x6 x7 x8 : Vec Ideal S128x128 .f32) (x9 x10 x11 x12 : Vec Ideal S1x128 .f32) (x13 x14 x15 x16 : Vec Ideal S3x128x128 .f32) (x17 x18 x19 x20 : Vec Ideal S128 .f32) (p : Fin 1000) (q : Fin 128),
      out0_22 (F := Ideal) x0 x1 x2 x3 x4 x5 x6 x7 x8 x9 x10 x11 x12 x13 x14 x15 x16 x17 x18 x19 x20 (ix2 p q)
        = stateAt (n := 1000) x0 x1 x2 x3 x4 x5 x6 x7 x9 x10 x11 x13 x14 x15 x17 x18 x19 p q) :
    (dats m 0 c).arrAt 22 cfg0.N = stateArr (V m c main_arg0) (V m c main_arg3) (V m c main_v43) (V m c main_v59) (V m c main_arg4) (V m c main_arg5) (V m c main_arg9) (V m c main_arg13) (V m c main_arg6) (V m c main_arg10) (V m c main_arg14) (V m c main_arg7) (V m c main_arg11) (V m c main_arg15) (V m c main_arg8) (V m c main_arg12) (V m c main_arg16) :=
  (dats m 0 c).arrAt_eq_of_cover 22 (stateArr (V m c main_arg0) (V m c main_arg3) (V m c main_v43) (V m c main_v59) (V m c main_arg4) (V m c main_arg5) (V m c main_arg9) (V m c main_arg13) (V m c main_arg6) (V m c main_arg10) (V m c main_arg14) (V m c main_arg7) (V m c main_arg11) (V m c main_arg15) (V m c main_arg8) (V m c main_arg12) (V m c main_arg16))
    (fun t _ => flushed_eq22 m c hE t) cover22

/-- THE NEW HIDDEN STATE after the run is `outArr` of the arrays as the region finds them. -/
theorem final21 (hE : ∀ (x0 x1 x2 x3 x4 : Vec Ideal S1000x128 .f32) (x5 x6 x7 x8 : Vec Ideal S128x128 .f32) (x9 x10 x11 x12 : Vec Ideal S1x128 .f32) (x13 x14 x15 x16 : Vec Ideal S3x128x128 .f32) (x17 x18 x19 x20 : Vec Ideal S128 .f32) (p : Fin 1000) (q : Fin 128),
      out0_21 (F := Ideal) x0 x1 x2 x3 x4 x5 x6 x7 x8 x9 x10 x11 x12 x13 x14 x15 x16 x17 x18 x19 x20 (ix2 p q)
        = outAt (n := 1000) x0 x1 x2 x3 x4 x5 x6 x7 x8 x9 x10 x11 x12 x13 x14 x15 x16 x17 x18 x19 x20 p q) :
    (dats m 0 c).arrAt 21 cfg0.N = outArr (V m c main_arg0) (V m c main_arg3) (V m c main_v43) (V m c main_v59) (V m c main_arg4) (V m c main_arg5) (V m c main_arg9) (V m c main_arg13) (V m c main_arg17) (V m c main_arg6) (V m c main_arg10) (V m c main_arg14) (V m c main_arg18) (V m c main_arg7) (V m c main_arg11) (V m c main_arg15) (V m c main_arg19) (V m c main_arg8) (V m c main_arg12) (V m c main_arg16) (V m c main_arg20) :=
  (dats m 0 c).arrAt_eq_of_cover 21 (outArr (V m c main_arg0) (V m c main_arg3) (V m c main_v43) (V m c main_v59) (V m c main_arg4) (V m c main_arg5) (V m c main_arg9) (V m c main_arg13) (V m c main_arg17) (V m c main_arg6) (V m c main_arg10) (V m c main_arg14) (V m c main_arg18) (V m c main_arg7) (V m c main_arg11) (V m c main_arg15) (V m c main_arg19) (V m c main_arg8) (V m c main_arg12) (V m c main_arg16) (V m c main_arg20))
    (fun t _ => flushed_eq21 m c hE t) cover21

end Cert.ChebLstm.Arr

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.KernelGate.lean ====
/-
  One gate's pre-activation inside the kernel body, read at an entry.

  The body holds a block of 1000 rows of the features `X`, of the hidden state `H` and of the two Chebyshev terms `T1`, `T2`,
  and for each gate the dense weight `W`, its bias row `b`, three 128 × 128 slabs `s0`, `s1`, `s2` of the convolution's
  weight tensor and the convolution's bias `cb`. Rounding an operand to a narrower float format is the identity on the
  extended reals, a matrix product into a zero accumulator is at entry `(p, q)` the sum over `k` of the products of row `p`
  and column `q`, a bias row broadcast over the rows is read at its column, and a shape cast that only drops or adds a
  unit axis keeps the row-major position. So at `(p, q)` a gate's pre-activation is

      (x_p · W[:, q] + b[q]) + (((h_p · s0[:, q] + t1_p · s1[:, q]) + t2_p · s2[:, q]) + cb[q]),

  whichever of the four groupings of intermediate values the body uses for that gate.
-/
import proofs.«122031_j63668595195950_1_alg».proof.Proof.Gen.KernelIdeal.Skeleton
import proofs.«122031_j63668595195950_1_alg».proof.Proof.Spec
import proofs.«122031_j63668595195950_1_alg».proof.Proof.LibMatmul
import Idealize.ShloMosaic.Lib.ValueLayout
import Idealize.ShloMosaic.Lib.Pipeline.Value

open scoped BigOperators

noncomputable section

namespace Cert.ChebLstm.Kern

open Idealize.ShloMosaic Idealize.ShloMosaic.ValueIdx Cert.KernelIdeal Cert.KernelIdeal.Gen Cert.ChebLstm

/-- A row of 128 numbers against column `q` of a single 128 × 128 slab carried with a leading unit axis. -/
def slabDot (r : Fin 128 → EReal) (s : (⟨3, ![1, 128, 128]⟩ : Shape).Idx → EReal) (q : Fin 128) : EReal :=
  ∑ k : Fin 128, r k * s (ix3 (0 : Fin 1) k q)

/-- A gate's pre-activation from the three slabs held separately. -/
def preSlabs (x h t1 t2 : Fin 128 → EReal) (W : (⟨2, ![128, 128]⟩ : Shape).Idx → EReal)
    (b : (⟨2, ![1, 128]⟩ : Shape).Idx → EReal) (s0 s1 s2 : (⟨3, ![1, 128, 128]⟩ : Shape).Idx → EReal)
    (cb : (⟨1, ![128]⟩ : Shape).Idx → EReal) (q : Fin 128) : EReal :=
  (rowDot x W q + b (ix2 0 q)) + (((slabDot h s0 q + slabDot t1 s1 q) + slabDot t2 s2 q) + cb (ix1 q))

/-- When the three slabs are slabs 0, 1, 2 of one weight tensor, this is the gate's pre-activation of the specification. -/
theorem preSlabs_eq_preRows (x h t1 t2 : Fin 128 → EReal) (W : (⟨2, ![128, 128]⟩ : Shape).Idx → EReal)
    (b : (⟨2, ![1, 128]⟩ : Shape).Idx → EReal) (s0 s1 s2 : (⟨3, ![1, 128, 128]⟩ : Shape).Idx → EReal)
    (cw : (⟨3, ![3, 128, 128]⟩ : Shape).Idx → EReal) (cb : (⟨1, ![128]⟩ : Shape).Idx → EReal) (q : Fin 128)
    (h0 : ∀ k : Fin 128, s0 (ix3 (0 : Fin 1) k q) = cw (ix3 (0 : Fin 3) k q))
    (h1 : ∀ k : Fin 128, s1 (ix3 (0 : Fin 1) k q) = cw (ix3 (1 : Fin 3) k q))
    (h2 : ∀ k : Fin 128, s2 (ix3 (0 : Fin 1) k q) = cw (ix3 (2 : Fin 3) k q)) :
    preSlabs x h t1 t2 W b s0 s1 s2 cb q = preRows x h t1 t2 W b cw cb q := by
  unfold preSlabs preRows conv slabDot rowDotSlab
  simp only [h0, h1, h2]

/-- Rounded operands in, zero accumulator: the matrix unit's product at `(p, q)` is the plain sum of products. -/
theorem mm_apply (A : Vec Ideal S1000x128 .f32) (B : Vec Ideal S128x128 .f32) (p : Fin 1000) (q : Fin 128) :
    matmul (F := Ideal) dot_S1000x128_S128x128_S1000x128_1_0_0_1_n_n none (truncf .bf16 A bitsLt_bf16_f32)
      (truncf .bf16 B bitsLt_bf16_f32) (constant S1000x128 .f32 0x00000000#32) (ix2 p q)
    = ∑ k : Fin 128, A (ix2 p k) * B (ix2 k q) :=
  Cert.MatOps.matmul_plain_zero_apply (M := 1000) (K := 128) (N := 128) none (truncf .bf16 A bitsLt_bf16_f32)
    (truncf .bf16 B bitsLt_bf16_f32) p q

/-- The same with the right operand a slab whose leading unit axis is cast away first. -/
theorem mm_slab_apply (A : Vec Ideal S1000x128 .f32) (s : Vec Ideal S1x128x128 .f32) (p : Fin 1000) (q : Fin 128) :
    matmul (F := Ideal) dot_S1000x128_S128x128_S1000x128_1_0_0_1_n_n none (truncf .bf16 A bitsLt_bf16_f32)
      (truncf .bf16 (shapeCast S128x128 s shapeCasts_S1x128x128_S128x128) bitsLt_bf16_f32)
      (constant S1000x128 .f32 0x00000000#32) (ix2 p q)
    = slabDot (fun k => A (ix2 p k)) s q := by
  refine (mm_apply A (shapeCast S128x128 s shapeCasts_S1x128x128_S128x128) p q).trans ?_
  unfold slabDot
  refine Finset.sum_congr rfl fun k _ => ?_
  exact congrArg (fun z => A (ix2 p k) * z)
    (shapeCast_1ab_ab_apply (a := 128) (b := 128) s shapeCasts_S1x128x128_S128x128 k q)

/-- A block cast to its own shape is itself. -/
theorem cast_self (A : Vec Ideal S1000x128 .f32) : shapeCast S1000x128 A shapeCasts_S1000x128_S1000x128 = A :=
  shapeCast_self A _

/-- A bias row broadcast over the 1000 rows is read at its column. -/
theorem bias_apply (b : Vec Ideal S1x128 .f32) (p : Fin 1000) (q : Fin 128) :
    broadcastTo S1000x128 b broadcasts_S1x128_S1000x128 (ix2 p q) = b (ix2 (0 : Fin 1) q) :=
  broadcastTo_1b_ab_apply (a := 1000) (b := 128) b broadcasts_S1x128_S1000x128 p q

/-- A bias vector cast to a row and broadcast over the 1000 rows is read at its column. -/
theorem cbias_apply (cb : Vec Ideal S128 .f32) (p : Fin 1000) (q : Fin 128) :
    broadcastTo S1000x128 (shapeCast S1x128 cb shapeCasts_S128_S1x128) broadcasts_S1x128_S1000x128 (ix2 p q) = cb (ix1 q) :=
  (bias_apply (shapeCast S1x128 cb shapeCasts_S128_S1x128) p q).trans
    (shapeCast_a_1a_apply (a := 128) cb shapeCasts_S128_S1x128 (0 : Fin 1) q)

/-- The same product with the left block first cast to its own shape. -/
theorem mm_slab_cast_apply (A : Vec Ideal S1000x128 .f32) (s : Vec Ideal S1x128x128 .f32) (p : Fin 1000) (q : Fin 128) :
    matmul (F := Ideal) dot_S1000x128_S128x128_S1000x128_1_0_0_1_n_n none
      (truncf .bf16 (shapeCast S1000x128 A shapeCasts_S1000x128_S1000x128) bitsLt_bf16_f32)
      (truncf .bf16 (shapeCast S128x128 s shapeCasts_S1x128x128_S128x128) bitsLt_bf16_f32)
      (constant S1000x128 .f32 0x00000000#32) (ix2 p q)
    = slabDot (fun k => A (ix2 p k)) s q := by
  rw [cast_self A]
  exact mm_slab_apply A s p q

/-- THE PRE-ACTIVATION AT AN ENTRY: the linear part with its bias row, plus the three slab products summed left to
    right with the convolution's bias. All four gates of the body have this shape. -/
theorem pre_apply (X H T1 T2 : Vec Ideal S1000x128 .f32) (W : Vec Ideal S128x128 .f32) (b : Vec Ideal S1x128 .f32)
    (s0 s1 s2 : Vec Ideal S1x128x128 .f32) (cb : Vec Ideal S128 .f32) (p : Fin 1000) (q : Fin 128) :
    addf (F := Ideal)
      (addf (matmul dot_S1000x128_S128x128_S1000x128_1_0_0_1_n_n none (truncf .bf16 X bitsLt_bf16_f32)
          (truncf .bf16 W bitsLt_bf16_f32) (constant S1000x128 .f32 0x00000000#32))
        (broadcastTo S1000x128 b broadcasts_S1x128_S1000x128))
      (addf
        (addf
          (addf
            (matmul dot_S1000x128_S128x128_S1000x128_1_0_0_1_n_n none (truncf .bf16 H bitsLt_bf16_f32)
              (truncf .bf16 (shapeCast S128x128 s0 shapeCasts_S1x128x128_S128x128) bitsLt_bf16_f32)
              (constant S1000x128 .f32 0x00000000#32))
            (matmul dot_S1000x128_S128x128_S1000x128_1_0_0_1_n_n none
              (truncf .bf16 (shapeCast S1000x128 T1 shapeCasts_S1000x128_S1000x128) bitsLt_bf16_f32)
              (truncf .bf16 (shapeCast S128x128 s1 shapeCasts_S1x128x128_S128x128) bitsLt_bf16_f32)
              (constant S1000x128 .f32 0x00000000#32)))
          (matmul dot_S1000x128_S128x128_S1000x128_1_0_0_1_n_n none
            (truncf .bf16 (shapeCast S1000x128 T2 shapeCasts_S1000x128_S1000x128) bitsLt_bf16_f32)
            (truncf .bf16 (shapeCast S128x128 s2 shapeCasts_S1x128x128_S128x128) bitsLt_bf16_f32)
            (constant S1000x128 .f32 0x00000000#32)))
        (broadcastTo S1000x128 (shapeCast S1x128 cb shapeCasts_S128_S1x128) broadcasts_S1x128_S1000x128))
      (ix2 p q)
    = preSlabs (row X p) (row H p) (row T1 p) (row T2 p) W b s0 s1 s2 cb q :=
  congrArg₂ (· + ·)
    (congrArg₂ (· + ·) (mm_apply X W p q) (bias_apply b p q))
    (congrArg₂ (· + ·)
      (congrArg₂ (· + ·)
        (congrArg₂ (· + ·) (mm_slab_apply H s0 p q) (mm_slab_cast_apply T1 s1 p q))
        (mm_slab_cast_apply T2 s2 p q))
      (cbias_apply cb p q))

end Cert.ChebLstm.Kern

end
-- ==== Proof.KernelEntry.lean ====
/-
  What the kernel body leaves in its two output blocks, read at an entry.

  The body loads its 1000-row blocks and the small weight arrays whole, and each gate's three convolution slabs as the
  sub-boxes `[s, 0:128, 0:128]`, `s = 0, 1, 2`, of the gate's `3 × 128 × 128` weight tensor; a load through such a box
  at `(0, k, q)` is the tensor at `(s, k, q)`. With the pre-activation of each gate read at `(p, q)`, the stored new
  cell state is `σ(f) · c + σ(i) · tanh(g)` and the stored new hidden state `σ(o) · tanh` of that, entry by entry:
  the specification's `stateAt` and `outAt` over the block's 1000 rows.
-/
import proofs.«122031_j63668595195950_1_alg».proof.Proof.Gen.KernelIdeal.Frame
import proofs.«122031_j63668595195950_1_alg».proof.Proof.KernelGate

open scoped BigOperators

noncomputable section

namespace Cert.ChebLstm.Kern

open Idealize.ShloMosaic Idealize.ShloMosaic.ValueIdx Cert.KernelIdeal Cert.KernelIdeal.Gen Cert.ChebLstm

theorem zero1 : (![0] : Fin 1 → Nat) = fun _ => 0 := funext fun a => by fin_cases a; rfl
theorem zero2 : (![0, 0] : Fin 2 → Nat) = fun _ => 0 := funext fun a => by fin_cases a <;> rfl

/-- The load of slab 0 of a weight tensor, at `(0, k, q)`, is the tensor at `(0, k, q)`. -/
theorem slab0 (cw : Vec Ideal S3x128x128 .f32) (k q : Fin 128) :
    View.ld cw r0_3 (ix3 (0 : Fin 1) k q) = cw (ix3 (0 : Fin 3) k q) :=
  congrArg cw (funext fun a => Fin.ext (by
    match a with
    | ⟨0, _⟩ => rfl
    | ⟨1, _⟩ => show 0 + 1 * k.val = k.val; omega
    | ⟨2, _⟩ => show 0 + 1 * q.val = q.val; omega))

/-- The load of slab 1, at `(0, k, q)`, is the tensor at `(1, k, q)`. -/
theorem slab1 (cw : Vec Ideal S3x128x128 .f32) (k q : Fin 128) :
    View.ld cw r0_4 (ix3 (0 : Fin 1) k q) = cw (ix3 (1 : Fin 3) k q) :=
  congrArg cw (funext fun a => Fin.ext (by
    match a with
    | ⟨0, _⟩ => rfl
    | ⟨1, _⟩ => show 0 + 1 * k.val = k.val; omega
    | ⟨2, _⟩ => show 0 + 1 * q.val = q.val; omega))

/-- The load of slab 2, at `(0, k, q)`, is the tensor at `(2, k, q)`. -/
theorem slab2 (cw : Vec Ideal S3x128x128 .f32) (k q : Fin 128) :
    View.ld cw r0_5 (ix3 (0 : Fin 1) k q) = cw (ix3 (2 : Fin 3) k q) :=
  congrArg cw (funext fun a => Fin.ext (by
    match a with
    | ⟨0, _⟩ => rfl
    | ⟨1, _⟩ => show 0 + 1 * k.val = k.val; omega
    | ⟨2, _⟩ => show 0 + 1 * q.val = q.val; omega))

/-- A gate's pre-activation at `(p, q)`, its slabs loaded from the gate's weight tensor, is the specification's. -/
theorem gate_apply (X H T1 T2 : Vec Ideal S1000x128 .f32) (W : Vec Ideal S128x128 .f32) (b : Vec Ideal S1x128 .f32)
    (cw : Vec Ideal S3x128x128 .f32) (cb : Vec Ideal S128 .f32) (p : Fin 1000) (q : Fin 128) :
    addf (F := Ideal)
      (addf (matmul dot_S1000x128_S128x128_S1000x128_1_0_0_1_n_n none (truncf .bf16 X bitsLt_bf16_f32)
          (truncf .bf16 W bitsLt_bf16_f32) (constant S1000x128 .f32 0x00000000#32))
        (broadcastTo S1000x128 b broadcasts_S1x128_S1000x128))
      (addf
        (addf
          (addf
            (matmul dot_S1000x128_S128x128_S1000x128_1_0_0_1_n_n none (truncf .bf16 H bitsLt_bf16_f32)
              (truncf .bf16 (shapeCast S128x128 (View.ld cw r0_3) shapeCasts_S1x128x128_S128x128) bitsLt_bf16_f32)
              (constant S1000x128 .f32 0x00000000#32))
            (matmul dot_S1000x128_S128x128_S1000x128_1_0_0_1_n_n none
              (truncf .bf16 (shapeCast S1000x128 T1 shapeCasts_S1000x128_S1000x128) bitsLt_bf16_f32)
              (truncf .bf16 (shapeCast S128x128 (View.ld cw r0_4) shapeCasts_S1x128x128_S128x128) bitsLt_bf16_f32)
              (constant S1000x128 .f32 0x00000000#32)))
          (matmul dot_S1000x128_S128x128_S1000x128_1_0_0_1_n_n none
            (truncf .bf16 (shapeCast S1000x128 T2 shapeCasts_S1000x128_S1000x128) bitsLt_bf16_f32)
            (truncf .bf16 (shapeCast S128x128 (View.ld cw r0_5) shapeCasts_S1x128x128_S128x128) bitsLt_bf16_f32)
            (constant S1000x128 .f32 0x00000000#32)))
        (broadcastTo S1000x128 (shapeCast S1x128 cb shapeCasts_S128_S1x128) broadcasts_S1x128_S1000x128))
      (ix2 p q)
    = preRows (row X p) (row H p) (row T1 p) (row T2 p) W b cw cb q :=
  (pre_apply X H T1 T2 W b (View.ld cw r0_3) (View.ld cw r0_4) (View.ld cw r0_5) cb p q).trans
    (preSlabs_eq_preRows (row X p) (row H p) (row T1 p) (row T2 p) W b (View.ld cw r0_3) (View.ld cw r0_4)
      (View.ld cw r0_5) cw cb q (fun k => slab0 cw k q) (fun k => slab1 cw k q) (fun k => slab2 cw k q))

/-- The stored new cell state at `(p, q)`, over the loaded values as variables. -/
theorem state_apply (X H T1 T2 C : Vec Ideal S1000x128 .f32) (Wi Wf Wg : Vec Ideal S128x128 .f32)
    (bi bf bg : Vec Ideal S1x128 .f32) (cwi cwf cwg : Vec Ideal S3x128x128 .f32) (cbi cbf cbg : Vec Ideal S128 .f32)
    (p : Fin 1000) (q : Fin 128) :
    k0_pay1 (F := Ideal) C
      (k0_pay9 (k0_pay7 X Wi bi) (k0_pay8 H T1 T2 (View.ld cwi r0_3) (View.ld cwi r0_4) (View.ld cwi r0_5)) cbi)
      (k0_pay10 (k0_pay3 X) (k0_pay4 H) (k0_pay5 T1) (k0_pay6 T2) Wf bf (View.ld cwf r0_3) (View.ld cwf r0_4) (View.ld cwf r0_5) cbf)
      (k0_pay12 (k0_pay4 H) (k0_pay5 T1) (k0_pay6 T2) (k0_pay11 (k0_pay3 X) Wg bg) (View.ld cwg r0_3) (View.ld cwg r0_4) (View.ld cwg r0_5) cbg)
      (ix2 p q)
    = stateAt (n := 1000) X H T1 T2 C Wi Wf Wg bi bf bg cwi cwf cwg cbi cbf cbg p q :=
  congrArg₂ (· + ·)
    (congrArg (fun z : EReal => Ideal.logistic z * C (ix2 p q)) (gate_apply X H T1 T2 Wf bf cwf cbf p q))
    (congrArg₂ (fun a b : EReal => Ideal.logistic a * Ideal.tanh b) (gate_apply X H T1 T2 Wi bi cwi cbi p q)
      (gate_apply X H T1 T2 Wg bg cwg cbg p q))

/-- The stored new hidden state at `(p, q)`, over the loaded values as variables. -/
theorem out_apply (X H T1 T2 C : Vec Ideal S1000x128 .f32) (Wi Wf Wg Wo : Vec Ideal S128x128 .f32)
    (bi bf bg bo : Vec Ideal S1x128 .f32) (cwi cwf cwg cwo : Vec Ideal S3x128x128 .f32) (cbi cbf cbg cbo : Vec Ideal S128 .f32)
    (p : Fin 1000) (q : Fin 128) :
    k0_pay2 (F := Ideal) C (k0_pay4 H) (k0_pay5 T1) (k0_pay6 T2)
      (k0_pay9 (k0_pay7 X Wi bi) (k0_pay8 H T1 T2 (View.ld cwi r0_3) (View.ld cwi r0_4) (View.ld cwi r0_5)) cbi)
      (k0_pay10 (k0_pay3 X) (k0_pay4 H) (k0_pay5 T1) (k0_pay6 T2) Wf bf (View.ld cwf r0_3) (View.ld cwf r0_4) (View.ld cwf r0_5) cbf)
      (k0_pay12 (k0_pay4 H) (k0_pay5 T1) (k0_pay6 T2) (k0_pay11 (k0_pay3 X) Wg bg) (View.ld cwg r0_3) (View.ld cwg r0_4) (View.ld cwg r0_5) cbg)
      (k0_pay13 (k0_pay3 X) Wo bo) (k0_pay14 (View.ld cwo r0_3)) (k0_pay15 (View.ld cwo r0_4)) (k0_pay16 (View.ld cwo r0_5)) cbo
      (ix2 p q)
    = outAt (n := 1000) X H T1 T2 C Wi Wf Wg Wo bi bf bg bo cwi cwf cwg cwo cbi cbf cbg cbo p q :=
  congrArg₂ (fun a b : EReal => Ideal.logistic a * Ideal.tanh b) (gate_apply X H T1 T2 Wo bo cwo cbo p q)
    (state_apply X H T1 T2 C Wi Wf Wg bi bf bg cwi cwf cwg cbi cbf cbg p q)

/-- ENTRY `(p, q)` OF THE NEW CELL STATE'S BLOCK, from the 21 input blocks. -/
theorem entry22 (x0 x1 x2 x3 x4 : Vec Ideal S1000x128 .f32) (x5 x6 x7 x8 : Vec Ideal S128x128 .f32) (x9 x10 x11 x12 : Vec Ideal S1x128 .f32) (x13 x14 x15 x16 : Vec Ideal S3x128x128 .f32) (x17 x18 x19 x20 : Vec Ideal S128 .f32) (p : Fin 1000) (q : Fin 128) :
    out0_22 (F := Ideal) x0 x1 x2 x3 x4 x5 x6 x7 x8 x9 x10 x11 x12 x13 x14 x15 x16 x17 x18 x19 x20 (ix2 p q)
    = stateAt (n := 1000) x0 x1 x2 x3 x4 x5 x6 x7 x9 x10 x11 x13 x14 x15 x17 x18 x19 p q := by
  unfold out0_22
  rw [View.canon_unit_zero zero2]
  simp only [View.ld_unit_zero (S := S1000x128) zero2, View.ld_unit_zero (S := S128x128) zero2,
    View.ld_unit_zero (S := S1x128) zero2, View.ld_unit_zero (S := S128) zero1]
  exact state_apply x0 x1 x2 x3 x4 x5 x6 x7 x9 x10 x11 x13 x14 x15 x17 x18 x19 p q

/-- ENTRY `(p, q)` OF THE NEW HIDDEN STATE'S BLOCK, from the 21 input blocks. -/
theorem entry21 (x0 x1 x2 x3 x4 : Vec Ideal S1000x128 .f32) (x5 x6 x7 x8 : Vec Ideal S128x128 .f32) (x9 x10 x11 x12 : Vec Ideal S1x128 .f32) (x13 x14 x15 x16 : Vec Ideal S3x128x128 .f32) (x17 x18 x19 x20 : Vec Ideal S128 .f32) (p : Fin 1000) (q : Fin 128) :
    out0_21 (F := Ideal) x0 x1 x2 x3 x4 x5 x6 x7 x8 x9 x10 x11 x12 x13 x14 x15 x16 x17 x18 x19 x20 (ix2 p q)
    = outAt (n := 1000) x0 x1 x2 x3 x4 x5 x6 x7 x8 x9 x10 x11 x12 x13 x14 x15 x16 x17 x18 x19 x20 p q := by
  unfold out0_21
  rw [View.canon_unit_zero zero2]
  simp only [View.ld_unit_zero (S := S1000x128) zero2, View.ld_unit_zero (S := S128x128) zero2,
    View.ld_unit_zero (S := S1x128) zero2, View.ld_unit_zero (S := S128) zero1]
  exact out_apply x0 x1 x2 x3 x4 x5 x6 x7 x8 x9 x10 x11 x12 x13 x14 x15 x16 x17 x18 x19 x20 p q

end Cert.ChebLstm.Kern

end
-- ==== Proof.KernelHost.lean ====
/-
  The two Chebyshev terms as the kernel's region finds them.

  Before the region the kernel's host program computes, from the edge list, the edge weights and the hidden state `H`,
  the degree-normalised edge weights, then `T1 = L̂ H` (a gather of rows of `H`, scaled per edge and summed into the
  edge's target row) and `T2 = 2 · L̂ T1 − H`. The reference computes the same two arrays by the same sequence of
  operations, once per gate. Both are kept here as ONE opaque function of the three arguments each: nothing below looks
  inside a gather or a scatter.

  The two `where` selections of the degree normalisation are written in the host program over typed references whose
  contents are transported along an equation between a buffer's type and the value's type; both sides of that equation
  are the same type, so each of these operations is the plain operation at the buffers' own types. With the two
  three-operation stretches restated that way, the values the host operations leave are, reference by reference, the
  compositions the reference's stages name.
-/
import proofs.«122031_j63668595195950_1_alg».proof.Proof.Gen.KernelIdeal.Frame
import proofs.«122031_j63668595195950_1_alg».proof.Proof.Gen.ReferenceIdeal.Read
import Idealize.ShloMosaic.Lib.StableHlo.Run

noncomputable section

namespace Cert.ChebLstm.Host

open Idealize.ShloMosaic Idealize.ShloMosaic.TcCoe Idealize.SL.Sem Idealize.ShloMosaic.StableHlo Cert.KernelIdeal Cert.KernelIdeal.Gen

/-- The three operations of the first `where`, at their buffers' own types. -/
abbrev whereOps0 : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S50000 ![] bcast_S_S50000 : (⟨S_, .f32⟩ : BufTy).Contents (Elt Ideal) → (⟨S50000, .f32⟩ : BufTy).Contents (Elt Ideal)),
    StableHlo.ternary main_v10 main_v6 main_call0_v1 main_v11 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ]

/-- The three operations of the second `where`, at their buffers' own types. -/
abbrev whereOps1 : List (HloOp τ sig (Elt Ideal)) :=
  [ StableHlo.unary main_cst_3 main_call1_v0 (id : (⟨S_, .f32⟩ : BufTy).Contents (Elt Ideal) → (⟨S_, .f32⟩ : BufTy).Contents (Elt Ideal)),
    StableHlo.unary main_call1_v0 main_call1_v1 (broadcastInDim S50000 ![] bcast_S_S50000 : (⟨S_, .f32⟩ : BufTy).Contents (Elt Ideal) → (⟨S50000, .f32⟩ : BufTy).Contents (Elt Ideal)),
    StableHlo.ternary main_v8 main_v12 main_call1_v1 main_v13 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ]

set_option maxHeartbeats 400000 in
/-- The first \`where\` is its three plain operations. -/
theorem where0_eq : (hostOps0_1 : List (HloOp τ sig (Elt Ideal))) = whereOps0 := rfl
set_option maxHeartbeats 400000 in
/-- The second \`where\` is its three plain operations. -/
theorem where1_eq : (hostOps0_3 : List (HloOp τ sig (Elt Ideal))) = whereOps1 := rfl

variable (m : (ℓ : Loc nD τ sig) → Buf (Elt Ideal) ℓ)

set_option maxRecDepth 16384 in
set_option maxHeartbeats 4000000 in
/-- The first Chebyshev term the region reads is the reference's first-gate term of the same three arguments. -/
theorem term1 (c : Dev nD) :
    V m c main_v43 = Cert.ReferenceIdeal.Read.val_main_v51 (F := Ideal) (m ((c : Thread nD τ).loc main_arg1))
      (m ((c : Thread nD τ).loc main_arg2)) (m ((c : Thread nD τ).loc main_arg3)) := by
  show StableHlo.after (List.flatten [hostOps0, hostOps0_1, hostOps0_2, hostOps0_3, hostOps0_4]) (fun b => m (c, b))
    (Proc.devRef .tc main_v43) = _
  rw [where0_eq, where1_eq]
  simp only [hostOps0, whereOps0, hostOps0_2, whereOps1, hostOps0_4, List.flatten_cons, List.flatten_nil, List.append_nil,
    List.cons_append, List.nil_append]
  after_results_simp
  rfl

set_option maxRecDepth 16384 in
set_option maxHeartbeats 4000000 in
/-- The second Chebyshev term the region reads is the reference's first-gate second term of the same arguments. -/
theorem term2 (c : Dev nD) :
    V m c main_v59 = Cert.ReferenceIdeal.Read.val_main_v71 (F := Ideal) (m ((c : Thread nD τ).loc main_arg1))
      (m ((c : Thread nD τ).loc main_arg2)) (m ((c : Thread nD τ).loc main_arg3)) := by
  show StableHlo.after (List.flatten [hostOps0, hostOps0_1, hostOps0_2, hostOps0_3, hostOps0_4]) (fun b => m (c, b))
    (Proc.devRef .tc main_v59) = _
  rw [where0_eq, where1_eq]
  simp only [hostOps0, whereOps0, hostOps0_2, whereOps1, hostOps0_4, List.flatten_cons, List.flatten_nil, List.append_nil,
    List.cons_append, List.nil_append]
  after_results_simp
  rfl

end Cert.ChebLstm.Host

end
-- ==== Proof.KernelValue.lean ====
/-
  The kernel's two results as functions of its arguments.

  After the run the new cell state's array holds, where its blocks cover it — everywhere —, what each grid point wrote
  back, and point `t` writes the specification's entries of rows `1000 t … 1000 t + 999`; likewise the new hidden state.
  The arrays the region reads are the program's arguments unchanged, except the two Chebyshev terms, which the host
  part computed from the edge list, the edge weights and the hidden state. So both results are the specification's
  whole-array functions of the arguments.
-/
import proofs.«122031_j63668595195950_1_alg».proof.Proof.KernelArray
import proofs.«122031_j63668595195950_1_alg».proof.Proof.KernelEntry
import proofs.«122031_j63668595195950_1_alg».proof.Proof.KernelHost

noncomputable section

namespace Cert.ChebLstm.Kern

open Idealize.ShloMosaic Idealize.ShloMosaic.TcCoe Idealize.SL.Sem Cert.KernelIdeal Cert.KernelIdeal.Gen Cert.ChebLstm

/-- The new cell state's array depends on its seventeen arrays only through their values. -/
theorem stateArr_congr {X X' : (⟨2, ![50000, 128]⟩ : Shape).Idx → EReal} {H H' : (⟨2, ![50000, 128]⟩ : Shape).Idx → EReal} {T1 T1' : (⟨2, ![50000, 128]⟩ : Shape).Idx → EReal} {T2 T2' : (⟨2, ![50000, 128]⟩ : Shape).Idx → EReal} {C C' : (⟨2, ![50000, 128]⟩ : Shape).Idx → EReal} {Wi Wi' : (⟨2, ![128, 128]⟩ : Shape).Idx → EReal} {Wf Wf' : (⟨2, ![128, 128]⟩ : Shape).Idx → EReal} {Wg Wg' : (⟨2, ![128, 128]⟩ : Shape).Idx → EReal} {bi bi' : (⟨2, ![1, 128]⟩ : Shape).Idx → EReal} {bf bf' : (⟨2, ![1, 128]⟩ : Shape).Idx → EReal} {bg bg' : (⟨2, ![1, 128]⟩ : Shape).Idx → EReal} {cwi cwi' : (⟨3, ![3, 128, 128]⟩ : Shape).Idx → EReal} {cwf cwf' : (⟨3, ![3, 128, 128]⟩ : Shape).Idx → EReal} {cwg cwg' : (⟨3, ![3, 128, 128]⟩ : Shape).Idx → EReal} {cbi cbi' : (⟨1, ![128]⟩ : Shape).Idx → EReal} {cbf cbf' : (⟨1, ![128]⟩ : Shape).Idx → EReal} {cbg cbg' : (⟨1, ![128]⟩ : Shape).Idx → EReal}
    (hX : X = X') (hH : H = H') (hT1 : T1 = T1') (hT2 : T2 = T2') (hC : C = C') (hWi : Wi = Wi') (hWf : Wf = Wf') (hWg : Wg = Wg') (hbi : bi = bi') (hbf : bf = bf') (hbg : bg = bg') (hcwi : cwi = cwi') (hcwf : cwf = cwf') (hcwg : cwg = cwg') (hcbi : cbi = cbi') (hcbf : cbf = cbf') (hcbg : cbg = cbg') :
    stateArr X H T1 T2 C Wi Wf Wg bi bf bg cwi cwf cwg cbi cbf cbg = stateArr X' H' T1' T2' C' Wi' Wf' Wg' bi' bf' bg' cwi' cwf' cwg' cbi' cbf' cbg' := by
  subst hX hH hT1 hT2 hC hWi hWf hWg hbi hbf hbg hcwi hcwf hcwg hcbi hcbf hcbg
  rfl

/-- The new hidden state's array depends on its twenty-one arrays only through their values. -/
theorem outArr_congr {X X' : (⟨2, ![50000, 128]⟩ : Shape).Idx → EReal} {H H' : (⟨2, ![50000, 128]⟩ : Shape).Idx → EReal} {T1 T1' : (⟨2, ![50000, 128]⟩ : Shape).Idx → EReal} {T2 T2' : (⟨2, ![50000, 128]⟩ : Shape).Idx → EReal} {C C' : (⟨2, ![50000, 128]⟩ : Shape).Idx → EReal} {Wi Wi' : (⟨2, ![128, 128]⟩ : Shape).Idx → EReal} {Wf Wf' : (⟨2, ![128, 128]⟩ : Shape).Idx → EReal} {Wg Wg' : (⟨2, ![128, 128]⟩ : Shape).Idx → EReal} {Wo Wo' : (⟨2, ![128, 128]⟩ : Shape).Idx → EReal} {bi bi' : (⟨2, ![1, 128]⟩ : Shape).Idx → EReal} {bf bf' : (⟨2, ![1, 128]⟩ : Shape).Idx → EReal} {bg bg' : (⟨2, ![1, 128]⟩ : Shape).Idx → EReal} {bo bo' : (⟨2, ![1, 128]⟩ : Shape).Idx → EReal} {cwi cwi' : (⟨3, ![3, 128, 128]⟩ : Shape).Idx → EReal} {cwf cwf' : (⟨3, ![3, 128, 128]⟩ : Shape).Idx → EReal} {cwg cwg' : (⟨3, ![3, 128, 128]⟩ : Shape).Idx → EReal} {cwo cwo' : (⟨3, ![3, 128, 128]⟩ : Shape).Idx → EReal} {cbi cbi' : (⟨1, ![128]⟩ : Shape).Idx → EReal} {cbf cbf' : (⟨1, ![128]⟩ : Shape).Idx → EReal} {cbg cbg' : (⟨1, ![128]⟩ : Shape).Idx → EReal} {cbo cbo' : (⟨1, ![128]⟩ : Shape).Idx → EReal}
    (hX : X = X') (hH : H = H') (hT1 : T1 = T1') (hT2 : T2 = T2') (hC : C = C') (hWi : Wi = Wi') (hWf : Wf = Wf') (hWg : Wg = Wg') (hWo : Wo = Wo') (hbi : bi = bi') (hbf : bf = bf') (hbg : bg = bg') (hbo : bo = bo') (hcwi : cwi = cwi') (hcwf : cwf = cwf') (hcwg : cwg = cwg') (hcwo : cwo = cwo') (hcbi : cbi = cbi') (hcbf : cbf = cbf') (hcbg : cbg = cbg') (hcbo : cbo = cbo') :
    outArr X H T1 T2 C Wi Wf Wg Wo bi bf bg bo cwi cwf cwg cwo cbi cbf cbg cbo = outArr X' H' T1' T2' C' Wi' Wf' Wg' Wo' bi' bf' bg' bo' cwi' cwf' cwg' cwo' cbi' cbf' cbg' cbo' := by
  subst hX hH hT1 hT2 hC hWi hWf hWg hWo hbi hbf hbg hbo hcwi hcwf hcwg hcwo hcbi hcbf hcbg hcbo
  rfl

variable (m : (ℓ : Loc nD τ sig) → Buf (Elt Ideal) ℓ) (ρ : Dev nD → PrngReg)

/-- The new cell state's array after the run, from the arguments. -/
theorem state_final (c : Dev nD) :
    (dats m 0 c).arrAt 22 cfg0.N = stateArr (m ((c : Thread nD τ).loc main_arg0)) (m ((c : Thread nD τ).loc main_arg3)) (Cert.ReferenceIdeal.Read.val_main_v51 (F := Ideal) (m ((c : Thread nD τ).loc main_arg1)) (m ((c : Thread nD τ).loc main_arg2)) (m ((c : Thread nD τ).loc main_arg3))) (Cert.ReferenceIdeal.Read.val_main_v71 (F := Ideal) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg9)) (m ((c : Thread nD τ).loc main_arg13)) (m ((c : Thread nD τ).loc main_arg6)) (m ((c : Thread nD τ).loc main_arg10)) (m ((c : Thread nD τ).loc main_arg14)) (m ((c : Thread nD τ).loc main_arg7)) (m ((c : Thread nD τ).loc main_arg11)) (m ((c : Thread nD τ).loc main_arg15)) (m ((c : Thread nD τ).loc main_arg8)) (m ((c : Thread nD τ).loc main_arg12)) (m ((c : Thread nD τ).loc main_arg16)) :=
  (Cert.ChebLstm.Arr.final22 m c entry22).trans
    (stateArr_congr (V_main_arg0 m c) (V_main_arg3 m c) (Cert.ChebLstm.Host.term1 m c) (Cert.ChebLstm.Host.term2 m c) (V_main_arg4 m c) (V_main_arg5 m c) (V_main_arg9 m c) (V_main_arg13 m c) (V_main_arg6 m c) (V_main_arg10 m c) (V_main_arg14 m c) (V_main_arg7 m c) (V_main_arg11 m c) (V_main_arg15 m c) (V_main_arg8 m c) (V_main_arg12 m c) (V_main_arg16 m c))

/-- The new hidden state's array after the run, from the arguments. -/
theorem out_final (c : Dev nD) :
    (dats m 0 c).arrAt 21 cfg0.N = outArr (m ((c : Thread nD τ).loc main_arg0)) (m ((c : Thread nD τ).loc main_arg3)) (Cert.ReferenceIdeal.Read.val_main_v51 (F := Ideal) (m ((c : Thread nD τ).loc main_arg1)) (m ((c : Thread nD τ).loc main_arg2)) (m ((c : Thread nD τ).loc main_arg3))) (Cert.ReferenceIdeal.Read.val_main_v71 (F := Ideal) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg9)) (m ((c : Thread nD τ).loc main_arg13)) (m ((c : Thread nD τ).loc main_arg17)) (m ((c : Thread nD τ).loc main_arg6)) (m ((c : Thread nD τ).loc main_arg10)) (m ((c : Thread nD τ).loc main_arg14)) (m ((c : Thread nD τ).loc main_arg18)) (m ((c : Thread nD τ).loc main_arg7)) (m ((c : Thread nD τ).loc main_arg11)) (m ((c : Thread nD τ).loc main_arg15)) (m ((c : Thread nD τ).loc main_arg19)) (m ((c : Thread nD τ).loc main_arg8)) (m ((c : Thread nD τ).loc main_arg12)) (m ((c : Thread nD τ).loc main_arg16)) (m ((c : Thread nD τ).loc main_arg20)) :=
  (Cert.ChebLstm.Arr.final21 m c entry21).trans
    (outArr_congr (V_main_arg0 m c) (V_main_arg3 m c) (Cert.ChebLstm.Host.term1 m c) (Cert.ChebLstm.Host.term2 m c) (V_main_arg4 m c) (V_main_arg5 m c) (V_main_arg9 m c) (V_main_arg13 m c) (V_main_arg17 m c) (V_main_arg6 m c) (V_main_arg10 m c) (V_main_arg14 m c) (V_main_arg18 m c) (V_main_arg7 m c) (V_main_arg11 m c) (V_main_arg15 m c) (V_main_arg19 m c) (V_main_arg8 m c) (V_main_arg12 m c) (V_main_arg16 m c) (V_main_arg20 m c))

/-- Every weakly fair execution of the kernel's program ends with the two results at the specification's arrays
    and the arguments unchanged. -/
theorem run : θ_run defs (onTc (τ := τ) (main (F := Ideal))) ⟨m, fun _ => 0, ρ⟩ fun r => ∀ c : Dev nD,
      r.2.mem ((c : Thread nD τ).loc main_v60_0) = outArr (m ((c : Thread nD τ).loc main_arg0)) (m ((c : Thread nD τ).loc main_arg3)) (Cert.ReferenceIdeal.Read.val_main_v51 (F := Ideal) (m ((c : Thread nD τ).loc main_arg1)) (m ((c : Thread nD τ).loc main_arg2)) (m ((c : Thread nD τ).loc main_arg3))) (Cert.ReferenceIdeal.Read.val_main_v71 (F := Ideal) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg9)) (m ((c : Thread nD τ).loc main_arg13)) (m ((c : Thread nD τ).loc main_arg17)) (m ((c : Thread nD τ).loc main_arg6)) (m ((c : Thread nD τ).loc main_arg10)) (m ((c : Thread nD τ).loc main_arg14)) (m ((c : Thread nD τ).loc main_arg18)) (m ((c : Thread nD τ).loc main_arg7)) (m ((c : Thread nD τ).loc main_arg11)) (m ((c : Thread nD τ).loc main_arg15)) (m ((c : Thread nD τ).loc main_arg19)) (m ((c : Thread nD τ).loc main_arg8)) (m ((c : Thread nD τ).loc main_arg12)) (m ((c : Thread nD τ).loc main_arg16)) (m ((c : Thread nD τ).loc main_arg20))
      ∧ r.2.mem ((c : Thread nD τ).loc main_v60_1) = stateArr (m ((c : Thread nD τ).loc main_arg0)) (m ((c : Thread nD τ).loc main_arg3)) (Cert.ReferenceIdeal.Read.val_main_v51 (F := Ideal) (m ((c : Thread nD τ).loc main_arg1)) (m ((c : Thread nD τ).loc main_arg2)) (m ((c : Thread nD τ).loc main_arg3))) (Cert.ReferenceIdeal.Read.val_main_v71 (F := Ideal) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg9)) (m ((c : Thread nD τ).loc main_arg13)) (m ((c : Thread nD τ).loc main_arg6)) (m ((c : Thread nD τ).loc main_arg10)) (m ((c : Thread nD τ).loc main_arg14)) (m ((c : Thread nD τ).loc main_arg7)) (m ((c : Thread nD τ).loc main_arg11)) (m ((c : Thread nD τ).loc main_arg15)) (m ((c : Thread nD τ).loc main_arg8)) (m ((c : Thread nD τ).loc main_arg12)) (m ((c : Thread nD τ).loc main_arg16))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20) :=
  (θ_run defs _ _).mono (fun r h c => ⟨(h c).1.trans (out_final m c), (h c).2.1.trans (state_final m c), (h c).2.2⟩)
    (Cert.KernelIdeal.Value.run_blocks (F := Ideal) m ρ)

end Cert.ChebLstm.Kern

end
-- ==== Proof.RefTerms.lean ====
/-
  The reference program recomputes the two Chebyshev terms T₁ = L̂ H and T₂ = 2 L̂ T₁ − H once for each of the four gates,
  every time by the same operations on the same arguments (the edge list, the edge weights and the hidden state H).
  The four copies of each term are therefore one array. In the same way the four gates are one computation applied to
  four sets of weights: the forget, candidate and output gates are the input gate's operations at the other weights.
  Each statement unfolds the named stages on both sides to the same expression; the scatter and gather that build the
  terms are never evaluated.
-/
import proofs.«122031_j63668595195950_1_alg».proof.Proof.Gen.ReferenceIdeal.Read

noncomputable section

namespace Cert.ChebLstm.Ref

open Cert.ReferenceIdeal Idealize.ShloMosaic Idealize.ShloMosaic.TcCoe Idealize.ShloMosaic.ValueIdx

/-! ## The Chebyshev terms of the forget, candidate and output gates are the input gate's -/

/-- T₁ as the forget gate recomputes it is T₁ as the input gate computes it. -/
theorem t1_forget (x1 : (⟨S2x800000, .i32⟩ : BufTy).Contents (Elt Ideal)) (x2 : (⟨S800000, .f32⟩ : BufTy).Contents (Elt Ideal)) (x3 : (⟨S50000x128, .f32⟩ : BufTy).Contents (Elt Ideal)) :
    Read.val_main_v104 (F := Ideal) x1 x2 x3 = Read.val_main_v51 (F := Ideal) x1 x2 x3 := rfl

/-- T₁ as the candidate gate recomputes it. -/
theorem t1_candidate (x1 : (⟨S2x800000, .i32⟩ : BufTy).Contents (Elt Ideal)) (x2 : (⟨S800000, .f32⟩ : BufTy).Contents (Elt Ideal)) (x3 : (⟨S50000x128, .f32⟩ : BufTy).Contents (Elt Ideal)) :
    Read.val_main_v157 (F := Ideal) x1 x2 x3 = Read.val_main_v51 (F := Ideal) x1 x2 x3 := rfl

/-- T₁ as the output gate recomputes it. -/
theorem t1_output (x1 : (⟨S2x800000, .i32⟩ : BufTy).Contents (Elt Ideal)) (x2 : (⟨S800000, .f32⟩ : BufTy).Contents (Elt Ideal)) (x3 : (⟨S50000x128, .f32⟩ : BufTy).Contents (Elt Ideal)) :
    Read.val_main_v208 (F := Ideal) x1 x2 x3 = Read.val_main_v51 (F := Ideal) x1 x2 x3 := rfl

/-- T₂ as the forget gate recomputes it is T₂ as the input gate computes it. -/
theorem t2_forget (x1 : (⟨S2x800000, .i32⟩ : BufTy).Contents (Elt Ideal)) (x2 : (⟨S800000, .f32⟩ : BufTy).Contents (Elt Ideal)) (x3 : (⟨S50000x128, .f32⟩ : BufTy).Contents (Elt Ideal)) :
    Read.val_main_v124 (F := Ideal) x1 x2 x3 = Read.val_main_v71 (F := Ideal) x1 x2 x3 := rfl

/-- T₂ as the candidate gate recomputes it. -/
theorem t2_candidate (x1 : (⟨S2x800000, .i32⟩ : BufTy).Contents (Elt Ideal)) (x2 : (⟨S800000, .f32⟩ : BufTy).Contents (Elt Ideal)) (x3 : (⟨S50000x128, .f32⟩ : BufTy).Contents (Elt Ideal)) :
    Read.val_main_v177 (F := Ideal) x1 x2 x3 = Read.val_main_v71 (F := Ideal) x1 x2 x3 := rfl

/-- T₂ as the output gate recomputes it. -/
theorem t2_output (x1 : (⟨S2x800000, .i32⟩ : BufTy).Contents (Elt Ideal)) (x2 : (⟨S800000, .f32⟩ : BufTy).Contents (Elt Ideal)) (x3 : (⟨S50000x128, .f32⟩ : BufTy).Contents (Elt Ideal)) :
    Read.val_main_v228 (F := Ideal) x1 x2 x3 = Read.val_main_v71 (F := Ideal) x1 x2 x3 := rfl

/-! ## The four gates are one computation at four sets of weights -/

/-- The forget gate's logistic stage is the input gate's at the forget gate's weights. -/
theorem forget_gate (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S50000x128, .f32⟩ : BufTy).Contents (Elt Ideal))
    (W : (⟨S128x128, .f32⟩ : BufTy).Contents (Elt Ideal)) (b : (⟨S1x128, .f32⟩ : BufTy).Contents (Elt Ideal)) (cw : (⟨S3x128x128, .f32⟩ : BufTy).Contents (Elt Ideal)) (cb : (⟨S128, .f32⟩ : BufTy).Contents (Elt Ideal)) :
    Read.val_main_v140 (F := Ideal) x0 x1 x2 x3 W b cw cb = Read.val_main_v87 (F := Ideal) x0 x1 x2 x3 W b cw cb := rfl

/-- The candidate's pre-activation is the input gate's pre-activation at the candidate's weights. -/
theorem candidate_pre (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S50000x128, .f32⟩ : BufTy).Contents (Elt Ideal))
    (W : (⟨S128x128, .f32⟩ : BufTy).Contents (Elt Ideal)) (b : (⟨S1x128, .f32⟩ : BufTy).Contents (Elt Ideal)) (cw : (⟨S3x128x128, .f32⟩ : BufTy).Contents (Elt Ideal)) (cb : (⟨S128, .f32⟩ : BufTy).Contents (Elt Ideal)) :
    Read.val_main_v187 (F := Ideal) x0 x1 x2 x3 W b cw cb = Read.val_main_v81 (F := Ideal) x0 x1 x2 x3 W b cw cb := rfl

/-- The output gate's logistic stage is the input gate's at the output gate's weights. -/
theorem output_gate (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S50000x128, .f32⟩ : BufTy).Contents (Elt Ideal))
    (W : (⟨S128x128, .f32⟩ : BufTy).Contents (Elt Ideal)) (b : (⟨S1x128, .f32⟩ : BufTy).Contents (Elt Ideal)) (cw : (⟨S3x128x128, .f32⟩ : BufTy).Contents (Elt Ideal)) (cb : (⟨S128, .f32⟩ : BufTy).Contents (Elt Ideal)) :
    Read.val_main_v244 (F := Ideal) x0 x1 x2 x3 W b cw cb = Read.val_main_v87 (F := Ideal) x0 x1 x2 x3 W b cw cb := rfl

end Cert.ChebLstm.Ref

end
-- ==== Proof.RefEntry.lean ====
/-
  The reference program, entry by entry, is the graph LSTM cell of the specification.

  The input gate is read first. At node `P` and feature `q` its pre-activation is the sum, in the reference's grouping
  `(x·W + conv) + b`, of row `P` of the features against column `q` of `W`, of rows `P` of H, T₁ and T₂ against column `q` of
  the three slabs of the Chebyshev weights, and of the two biases. Slab `s` of a 3 × 128 × 128 tensor is cut out as a
  1 × 128 × 128 slice and reshaped to 128 × 128; entry `(k, q)` of the reshaped slab is entry `(s, k, q)` of the tensor,
  because `(k·128 + q) / 128 = k` and `(k·128 + q) % 128 = q` for `q < 128`. The logistic function is spelled
  `1 / (1 + exp (−x))`. The other three gates are the same computation at their own weights, so the new cell state
  `σ(f)·c + σ(i)·tanh(g)` and the new hidden state `σ(o)·tanh(c')` follow; the specification groups a pre-activation as
  `(x·W + b) + conv`, which is the same extended real.
-/
import proofs.«122031_j63668595195950_1_alg».proof.Proof.Gen.ReferenceIdeal.Read
import proofs.«122031_j63668595195950_1_alg».proof.Proof.Spec
import proofs.«122031_j63668595195950_1_alg».proof.Proof.RefTerms

open scoped BigOperators

noncomputable section

namespace Cert.ChebLstm.Ref

open Cert.ReferenceIdeal Idealize.ShloMosaic Idealize.ShloMosaic.TcCoe Idealize.ShloMosaic.ValueIdx

/-! ## The six summands of the input gate's pre-activation at one entry -/

/-- The features' row `P` against column `q` of the gate's weight matrix. -/
theorem features_at (x0 : (⟨S50000x128, .f32⟩ : BufTy).Contents (Elt Ideal)) (W : (⟨S128x128, .f32⟩ : BufTy).Contents (Elt Ideal)) (P : Fin 50000) (q : Fin 128) :
    Read.val_main_v35 (F := Ideal) x0 W (ix2 P q) = rowDot (row x0 P) W q := by
  rw [Read.val_main_v35_apply]
  show _ = ∑ k : Fin 128, x0 (ix2 P k) * W (ix2 k q)
  refine Finset.sum_congr rfl fun k _ => ?_
  have el : Read.lidx_main_v35 (ix2 P q) k = ix2 P k := funext fun a => Fin.ext (by match a with | ⟨0, _⟩ => rfl | ⟨1, _⟩ => rfl)
  have er : Read.ridx_main_v35 (ix2 P q) k = ix2 k q := funext fun a => Fin.ext (by match a with | ⟨0, _⟩ => rfl | ⟨1, _⟩ => rfl)
  rw [el, er]

/-- Row `P` of the hidden state against column `q` of slab 0 of the Chebyshev weights. -/
theorem hidden_at (x3 : (⟨S50000x128, .f32⟩ : BufTy).Contents (Elt Ideal)) (cw : (⟨S3x128x128, .f32⟩ : BufTy).Contents (Elt Ideal)) (P : Fin 50000) (q : Fin 128) :
    Read.val_main_v38 (F := Ideal) x3 cw (ix2 P q) = rowDotSlab (row x3 P) cw 0 q := by
  rw [Read.val_main_v38_apply]
  show _ = ∑ k : Fin 128, x3 (ix2 P k) * cw (ix3 (0 : Fin 3) k q)
  refine Finset.sum_congr rfl fun k _ => ?_
  have el : Read.lidx_main_v38 (ix2 P q) k = ix2 P k := funext fun a => Fin.ext (by match a with | ⟨0, _⟩ => rfl | ⟨1, _⟩ => rfl)
  have er : Read.idx_main_v36 (Read.idx_main_v37 (Read.ridx_main_v38 (ix2 P q) k)) = ix3 (0 : Fin 3) k q :=
    funext fun a => Fin.ext (by
      have hk := k.isLt
      have hq := q.isLt
      match a with
      | ⟨0, _⟩ => rfl
      | ⟨1, _⟩ => show (k.val * 128 + q.val) / 128 % 128 = k.val; omega
      | ⟨2, _⟩ => show (k.val * 128 + q.val) % 128 = q.val; omega)
  rw [Read.val_main_v37_apply, Read.val_main_v36_apply, el, er]

/-- Row `P` of T₁ against column `q` of slab 1. -/
theorem t1_at (x1 : (⟨S2x800000, .i32⟩ : BufTy).Contents (Elt Ideal)) (x2 : (⟨S800000, .f32⟩ : BufTy).Contents (Elt Ideal)) (x3 : (⟨S50000x128, .f32⟩ : BufTy).Contents (Elt Ideal)) (cw : (⟨S3x128x128, .f32⟩ : BufTy).Contents (Elt Ideal)) (P : Fin 50000) (q : Fin 128) :
    Read.val_main_v54 (F := Ideal) x1 x2 x3 cw (ix2 P q) = rowDotSlab (row (Read.val_main_v51 (F := Ideal) x1 x2 x3) P) cw 1 q := by
  rw [Read.val_main_v54_apply]
  generalize Read.val_main_v51 (F := Ideal) x1 x2 x3 = T
  show _ = ∑ k : Fin 128, T (ix2 P k) * cw (ix3 (1 : Fin 3) k q)
  refine Finset.sum_congr rfl fun k _ => ?_
  have el : Read.lidx_main_v54 (ix2 P q) k = ix2 P k := funext fun a => Fin.ext (by match a with | ⟨0, _⟩ => rfl | ⟨1, _⟩ => rfl)
  have er : Read.idx_main_v52 (Read.idx_main_v53 (Read.ridx_main_v54 (ix2 P q) k)) = ix3 (1 : Fin 3) k q :=
    funext fun a => Fin.ext (by
      have hk := k.isLt
      have hq := q.isLt
      match a with
      | ⟨0, _⟩ => rfl
      | ⟨1, _⟩ => show (k.val * 128 + q.val) / 128 % 128 = k.val; omega
      | ⟨2, _⟩ => show (k.val * 128 + q.val) % 128 = q.val; omega)
  rw [Read.val_main_v53_apply, Read.val_main_v52_apply, el, er]

/-- Row `P` of T₂ against column `q` of slab 2. -/
theorem t2_at (x1 : (⟨S2x800000, .i32⟩ : BufTy).Contents (Elt Ideal)) (x2 : (⟨S800000, .f32⟩ : BufTy).Contents (Elt Ideal)) (x3 : (⟨S50000x128, .f32⟩ : BufTy).Contents (Elt Ideal)) (cw : (⟨S3x128x128, .f32⟩ : BufTy).Contents (Elt Ideal)) (P : Fin 50000) (q : Fin 128) :
    Read.val_main_v74 (F := Ideal) x1 x2 x3 cw (ix2 P q) = rowDotSlab (row (Read.val_main_v71 (F := Ideal) x1 x2 x3) P) cw 2 q := by
  rw [Read.val_main_v74_apply]
  generalize Read.val_main_v71 (F := Ideal) x1 x2 x3 = T
  show _ = ∑ k : Fin 128, T (ix2 P k) * cw (ix3 (2 : Fin 3) k q)
  refine Finset.sum_congr rfl fun k _ => ?_
  have el : Read.lidx_main_v74 (ix2 P q) k = ix2 P k := funext fun a => Fin.ext (by match a with | ⟨0, _⟩ => rfl | ⟨1, _⟩ => rfl)
  have er : Read.idx_main_v72 (Read.idx_main_v73 (Read.ridx_main_v74 (ix2 P q) k)) = ix3 (2 : Fin 3) k q :=
    funext fun a => Fin.ext (by
      have hk := k.isLt
      have hq := q.isLt
      match a with
      | ⟨0, _⟩ => rfl
      | ⟨1, _⟩ => show (k.val * 128 + q.val) / 128 % 128 = k.val; omega
      | ⟨2, _⟩ => show (k.val * 128 + q.val) % 128 = q.val; omega)
  rw [Read.val_main_v73_apply, Read.val_main_v72_apply, el, er]

/-- The convolution's bias, a vector of 128 numbers, broadcast over the nodes. -/
theorem conv_bias_at (cb : (⟨S128, .f32⟩ : BufTy).Contents (Elt Ideal)) (P : Fin 50000) (q : Fin 128) :
    Read.val_main_v77 (F := Ideal) cb (ix2 P q) = cb (ix1 q) := by
  rw [Read.val_main_v77_apply, Read.val_main_v76_apply]
  exact congrArg cb (funext fun a => Fin.ext (by match a with | ⟨0, _⟩ => rfl))

/-- The linear part's bias, a 1 × 128 row, broadcast over the nodes. -/
theorem bias_at (b : (⟨S1x128, .f32⟩ : BufTy).Contents (Elt Ideal)) (P : Fin 50000) (q : Fin 128) :
    Read.val_main_v80 (F := Ideal) b (ix2 P q) = b (ix2 (0 : Fin 1) q) := by
  rw [Read.val_main_v80_apply]
  exact congrArg b (funext fun a => Fin.ext (by match a with | ⟨0, _⟩ => rfl | ⟨1, _⟩ => rfl))

/-! ## A gate at one entry -/

/-- The input gate's pre-activation at `(P, q)`, in the grouping `(x·W + conv) + b`. -/
theorem pre_at (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S50000x128, .f32⟩ : BufTy).Contents (Elt Ideal))
    (W : (⟨S128x128, .f32⟩ : BufTy).Contents (Elt Ideal)) (b : (⟨S1x128, .f32⟩ : BufTy).Contents (Elt Ideal)) (cw : (⟨S3x128x128, .f32⟩ : BufTy).Contents (Elt Ideal)) (cb : (⟨S128, .f32⟩ : BufTy).Contents (Elt Ideal)) (P : Fin 50000) (q : Fin 128) :
    Read.val_main_v81 (F := Ideal) x0 x1 x2 x3 W b cw cb (ix2 P q) = preCols (row x0 P) (row x3 P) (row (Read.val_main_v51 (F := Ideal) x1 x2 x3) P) (row (Read.val_main_v71 (F := Ideal) x1 x2 x3) P) W b cw cb q := by
  rw [Read.val_main_v81_apply, Read.val_main_v79_apply, Read.val_main_v78_apply, Read.val_main_v75_apply,
    Read.val_main_v55_apply, features_at, hidden_at, t1_at, t2_at, conv_bias_at, bias_at]
  rfl

/-- The input gate at `(P, q)`: the logistic function of its pre-activation. -/
theorem gate_at (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 : (⟨S50000x128, .f32⟩ : BufTy).Contents (Elt Ideal))
    (W : (⟨S128x128, .f32⟩ : BufTy).Contents (Elt Ideal)) (b : (⟨S1x128, .f32⟩ : BufTy).Contents (Elt Ideal)) (cw : (⟨S3x128x128, .f32⟩ : BufTy).Contents (Elt Ideal)) (cb : (⟨S128, .f32⟩ : BufTy).Contents (Elt Ideal)) (P : Fin 50000) (q : Fin 128) :
    Read.val_main_v87 (F := Ideal) x0 x1 x2 x3 W b cw cb (ix2 P q) = Ideal.logistic (preCols (row x0 P) (row x3 P) (row (Read.val_main_v51 (F := Ideal) x1 x2 x3) P) (row (Read.val_main_v71 (F := Ideal) x1 x2 x3) P) W b cw cb q) := by
  rw [Read.val_main_v87_apply, Read.val_main_v86_apply, Read.val_main_cst_15_apply, Read.val_main_v85_apply,
    Read.val_main_v84_apply, Read.val_main_cst_14_apply, Read.val_main_v83_apply, Read.val_main_v82_apply, pre_at]
  exact logistic_spelled _

/-! ## The two results -/

/-- The reference's new cell state is the specification's, over all nodes. -/
theorem ref_state (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 : (⟨S50000x128, .f32⟩ : BufTy).Contents (Elt Ideal))
    (x5 : (⟨S128x128, .f32⟩ : BufTy).Contents (Elt Ideal)) (x6 : (⟨S1x128, .f32⟩ : BufTy).Contents (Elt Ideal)) (x7 : (⟨S3x128x128, .f32⟩ : BufTy).Contents (Elt Ideal)) (x8 : (⟨S128, .f32⟩ : BufTy).Contents (Elt Ideal))
    (x9 : (⟨S128x128, .f32⟩ : BufTy).Contents (Elt Ideal)) (x10 : (⟨S1x128, .f32⟩ : BufTy).Contents (Elt Ideal)) (x11 : (⟨S3x128x128, .f32⟩ : BufTy).Contents (Elt Ideal)) (x12 : (⟨S128, .f32⟩ : BufTy).Contents (Elt Ideal))
    (x13 : (⟨S128x128, .f32⟩ : BufTy).Contents (Elt Ideal)) (x14 : (⟨S1x128, .f32⟩ : BufTy).Contents (Elt Ideal)) (x15 : (⟨S3x128x128, .f32⟩ : BufTy).Contents (Elt Ideal)) (x16 : (⟨S128, .f32⟩ : BufTy).Contents (Elt Ideal)) :
    Read.val_main_v191 (F := Ideal) x0 x1 x2 x3 x4 x5 x6 x7 x8 x9 x10 x11 x12 x13 x14 x15 x16
      = Cert.ChebLstm.stateArr x0 x3 (Read.val_main_v51 (F := Ideal) x1 x2 x3) (Read.val_main_v71 (F := Ideal) x1 x2 x3) x4
          x5 x9 x13 x6 x10 x14 x7 x11 x15 x8 x12 x16 := by
  funext i
  obtain ⟨P, q, rfl⟩ : ∃ (P : Fin 50000) (q : Fin 128), i = ix2 P q := ⟨i 0, i 1, eq_ix2 i⟩
  rw [Read.val_main_v191_apply, Read.val_main_v189_apply, Read.val_main_v190_apply, Read.val_main_v188_apply,
    forget_gate, candidate_pre, gate_at, gate_at, pre_at,
    ← preRows_eq_preCols, ← preRows_eq_preCols, ← preRows_eq_preCols]
  generalize Read.val_main_v51 (F := Ideal) x1 x2 x3 = T1
  generalize Read.val_main_v71 (F := Ideal) x1 x2 x3 = T2
  rfl

/-- The reference's new hidden state is the specification's, over all nodes. -/
theorem ref_out (x0 : (⟨S50000x128, .f32⟩ : BufTy).Contents (Elt Ideal)) (x1 : (⟨S2x800000, .i32⟩ : BufTy).Contents (Elt Ideal)) (x2 : (⟨S800000, .f32⟩ : BufTy).Contents (Elt Ideal)) (x3 x4 : (⟨S50000x128, .f32⟩ : BufTy).Contents (Elt Ideal))
    (x5 : (⟨S128x128, .f32⟩ : BufTy).Contents (Elt Ideal)) (x6 : (⟨S1x128, .f32⟩ : BufTy).Contents (Elt Ideal)) (x7 : (⟨S3x128x128, .f32⟩ : BufTy).Contents (Elt Ideal)) (x8 : (⟨S128, .f32⟩ : BufTy).Contents (Elt Ideal))
    (x9 : (⟨S128x128, .f32⟩ : BufTy).Contents (Elt Ideal)) (x10 : (⟨S1x128, .f32⟩ : BufTy).Contents (Elt Ideal)) (x11 : (⟨S3x128x128, .f32⟩ : BufTy).Contents (Elt Ideal)) (x12 : (⟨S128, .f32⟩ : BufTy).Contents (Elt Ideal))
    (x13 : (⟨S128x128, .f32⟩ : BufTy).Contents (Elt Ideal)) (x14 : (⟨S1x128, .f32⟩ : BufTy).Contents (Elt Ideal)) (x15 : (⟨S3x128x128, .f32⟩ : BufTy).Contents (Elt Ideal)) (x16 : (⟨S128, .f32⟩ : BufTy).Contents (Elt Ideal))
    (x17 : (⟨S128x128, .f32⟩ : BufTy).Contents (Elt Ideal)) (x18 : (⟨S1x128, .f32⟩ : BufTy).Contents (Elt Ideal)) (x19 : (⟨S3x128x128, .f32⟩ : BufTy).Contents (Elt Ideal)) (x20 : (⟨S128, .f32⟩ : BufTy).Contents (Elt Ideal)) :
    Read.val_main_v246 (F := Ideal) x0 x1 x2 x3 x4 x5 x6 x7 x8 x9 x10 x11 x12 x13 x14 x15 x16 x17 x18 x19 x20
      = Cert.ChebLstm.outArr x0 x3 (Read.val_main_v51 (F := Ideal) x1 x2 x3) (Read.val_main_v71 (F := Ideal) x1 x2 x3) x4
          x5 x9 x13 x17 x6 x10 x14 x18 x7 x11 x15 x19 x8 x12 x16 x20 := by
  funext i
  obtain ⟨P, q, rfl⟩ : ∃ (P : Fin 50000) (q : Fin 128), i = ix2 P q := ⟨i 0, i 1, eq_ix2 i⟩
  rw [Read.val_main_v246_apply, Read.val_main_v245_apply, output_gate, gate_at, ref_state, ← preRows_eq_preCols]
  generalize Read.val_main_v51 (F := Ideal) x1 x2 x3 = T1
  generalize Read.val_main_v71 (F := Ideal) x1 x2 x3 = T2
  rfl

end Cert.ChebLstm.Ref

end
-- ==== Proof.lean ====
/-
  A graph LSTM cell with Chebyshev graph convolutions in its gates: the kernel against its reference.

  Both programs first form, from the edge list, the edge weights and the hidden state `H`, the Chebyshev terms
  `T1 = L̂ H` and `T2 = 2 L̂ T1 − H` of the degree-normalised graph operator `L̂` — the kernel once, the reference once per
  gate, by the same operations, so the terms are carried as one function of the three arguments and never opened.
  Each of the four gates then has, for node `p` and feature `q`, the pre-activation

      x_p · W[:, q] + b[q] + h_p · cw[0][:, q] + t1_p · cw[1][:, q] + t2_p · cw[2][:, q] + cb[q];

  the kernel adds the linear part's bias first and the reference adds it last, which is the same extended real because
  addition of extended reals is commutative and associative at every value. The kernel rounds the operands of its
  matrix products to a narrower format, which is the identity on the extended reals, and its logistic function is the
  reference's `1 / (1 + exp(−x))`. The new cell state is `σ(f) · c + σ(i) · tanh(g)` and the new hidden state
  `σ(o) · tanh` of it, entry by entry, in both programs.

  The kernel handles 1000 rows per grid point; the blocks the 50 points write back tile the two result arrays, and an
  entry of a block depends on the big arrays only through its own row, so the result arrays are the whole-array
  functions `outArr` and `stateArr` of the arguments. The reference's two results are read entry by entry off its
  operations and are the same two functions.
-/
import proofs.«122031_j63668595195950_1_alg».proof.Defs
import proofs.«122031_j63668595195950_1_alg».proof.Proof.Gen.Kernel
import proofs.«122031_j63668595195950_1_alg».proof.Proof.Gen.Kernel.Skeleton
import proofs.«122031_j63668595195950_1_alg».proof.Proof.Gen.Kernel.Launch
import proofs.«122031_j63668595195950_1_alg».proof.Proof.Gen.Kernel.Points
import proofs.«122031_j63668595195950_1_alg».proof.Proof.Gen.Kernel.Frame
import proofs.«122031_j63668595195950_1_alg».proof.Proof.Gen.KernelIdeal
import proofs.«122031_j63668595195950_1_alg».proof.Proof.Gen.KernelIdeal.Skeleton
import proofs.«122031_j63668595195950_1_alg».proof.Proof.Gen.KernelIdeal.Launch
import proofs.«122031_j63668595195950_1_alg».proof.Proof.Gen.KernelIdeal.Points
import proofs.«122031_j63668595195950_1_alg».proof.Proof.Gen.KernelIdeal.Frame
import proofs.«122031_j63668595195950_1_alg».proof.Proof.Gen.ReferenceIdeal
import proofs.«122031_j63668595195950_1_alg».proof.Proof.Gen.Pre_finite_inputs
import proofs.«122031_j63668595195950_1_alg».proof.Proof.Gen.KernelIdeal.Value
import proofs.«122031_j63668595195950_1_alg».proof.Proof.Gen.ReferenceIdeal.Run
import proofs.«122031_j63668595195950_1_alg».proof.Proof.Gen.ReferenceIdeal.Read
import Idealize.ShloMosaic.Adequacy
import Idealize.ShloMosaic.Init
import proofs.«122031_j63668595195950_1_alg».proof.Proof.KernelValue
import proofs.«122031_j63668595195950_1_alg».proof.Proof.RefEntry

noncomputable section

namespace Cert.Proof

open Idealize.ShloMosaic Idealize.ShloMosaic.TcCoe Idealize.SL.Sem

/-- The reference's run keeps its arguments: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

set_option maxHeartbeats 2000000 in
/-- From memories that agree on the arguments, both programs end with the new hidden state `outArr` and the new cell
    state `stateArr` of the arguments. -/
theorem algebraic : Cert.algebraic_KernelIdeal_ReferenceIdeal := by
  intro m ρ m' ρ' _ hagree
  refine ⟨_, _, Cert.ChebLstm.Kern.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18, a19, a20⟩ := hagree c
  refine ⟨(h c).1.trans ?_, (h c).2.1.trans ?_, (h c).2.2⟩
  · rw [Cert.ReferenceIdeal.Read.val_main_v246_eq, Cert.ChebLstm.Ref.ref_out, a0, a1, a2, a3, a4, a5, a6, a7, a8, a9, a10, a11, a12, a13, a14, a15, a16, a17, a18, a19, a20]
  · rw [Cert.ReferenceIdeal.Read.val_main_v191_eq, Cert.ChebLstm.Ref.ref_state, a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
